-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S100000x64 : Shape := ⟨2, ![100000, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn_part2 {F : FTy → Type} [FloatOps F] (main_arg8 : FVec F S100000x64 .f32) (main_v33 : IVec S_ 1) : IVec S_ 1 :=
  let main_v34 : FVec F S100000x64 .f32 := Host.absf main_arg8
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  main_v38

def fn_part1 {F : FTy → Type} [FloatOps F] (main_arg5 : FVec F S64 .f32) (main_arg6 : FVec F S64x64 .f32) (main_arg7 : FVec F S64 .f32) (main_arg8 : FVec F S100000x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x512 .f32) (main_arg1 : IVec S2x1600000 32) (main_arg2 : FVec F S512x64 .f32) (main_arg3 : FVec F S64 .f32) (main_arg4 : FVec F S64x64 .f32) (main_arg5 : FVec F S64 .f32) (main_arg6 : FVec F S64x64 .f32) (main_arg7 : FVec F S64 .f32) (main_arg8 : FVec F S100000x64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S4000x512 : Shape := ⟨2, ![4000, 512]⟩
abbrev S4000x64 : Shape := ⟨2, ![4000, 64]⟩
abbrev S1600000x64 : Shape := ⟨2, ![1600000, 64]⟩
abbrev S100000x1 : Shape := ⟨2, ![100000, 1]⟩
abbrev S64x128 : Shape := ⟨2, ![64, 128]⟩
abbrev S1x64 : Shape := ⟨2, ![1, 64]⟩
abbrev S100000x128 : Shape := ⟨2, ![100000, 128]⟩
abbrev S4000x128 : Shape := ⟨2, ![4000, 128]⟩
abbrev S1600000x128 : Shape := ⟨2, ![1600000, 128]⟩

abbrev nBuf : Space → Nat
  | .hbm => 96
  | .vmem => 23
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000x64, .bf16⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .bf16⟩
  | .hbm, ⟨53, _⟩ => ⟨S1600000x64, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x64, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S64x128, .f32⟩
  | .hbm, ⟨67, _⟩ => ⟨S1x64, .f32⟩
  | .hbm, ⟨68, _⟩ => ⟨S100000x128, .bf16⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .bf16⟩
  | .hbm, ⟨78, _⟩ => ⟨S1600000x128, .f32⟩
  | .hbm, ⟨79, _⟩ => ⟨S1600000x1, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S1x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .bf16⟩
  | .local _ .vmem, ⟨4, _⟩ => ⟨S4000x64, .bf16⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S64x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S1x64, .f32⟩
  | .local _ .vmem, ⟨14, _⟩ => ⟨S1x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71_0 : Ref sig .tc := ⟨.hbm, 93, rfl⟩
abbrev main_v71_1 : Ref sig .tc := ⟨.hbm, 94, rfl⟩
abbrev main_v71_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S64x64_S64x64_S64x128_d1 : Shape.Concatenates [S64x64, S64x64] S64x128 1
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S4000x128_S4000x128 : S4000x128.ShapeCasts S4000x128
  slices_S4000x128_o0_0_S4000x64 : S4000x128.Slices ![0, 0] S4000x64
  slices_S4000x128_o0_64_S4000x64 : S4000x128.Slices ![0, 64] S4000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x512_S512x64_S4000x64_1_0_0_1_n_n_wf : DotDims.WF S4000x512 S512x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .bf16 = 32 ∨ (Rect.block (s := S100000x64) S4000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .bf16 = 32 ∨ (Rect.block (s := S100000x128) S4000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v71_0) S4000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v71_1) S4000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v71_2) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 194
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S100000x64, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x1, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S100000x64, .f32⟩
  | 125 => ⟨S_, .f32⟩
  | 126 => ⟨S1600000, .f32⟩
  | 127 => ⟨S_, .f32⟩
  | _ => ⟨S100000x512, .f32⟩

abbrev hbmTy0_1 (i : Nat) : BufTy := match i % 128 with
  | 0 => ⟨S100000, .f32⟩
  | 1 => ⟨S1600000x1, .i32⟩
  | 2 => ⟨S100000, .f32⟩
  | 3 => ⟨S_, .f32⟩
  | 4 => ⟨S100000, .f32⟩
  | 5 => ⟨S100000, .f32⟩
  | 6 => ⟨S100000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S1600000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S1600000x1, .f32⟩
  | 36 => ⟨S1600000x64, .f32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S100000, .f32⟩
  | 43 => ⟨S100000x1, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S100000x64, .f32⟩
  | 55 => ⟨S100000x64, .i1⟩
  | 56 => ⟨S100000x64, .f32⟩
  | 57 => ⟨S100000x64, .f32⟩
  | 58 => ⟨S100000x64, .f32⟩
  | 59 => ⟨S100000x64, .f32⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_cst_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_21 : Ref sig .tc := ⟨.hbm, 135, rfl⟩
abbrev main_v101 : Ref sig .tc := ⟨.hbm, 136, rfl⟩
abbrev main_v102 : Ref sig .tc := ⟨.hbm, 137, rfl⟩
abbrev main_c_22 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_23 : Ref sig .tc := ⟨.hbm, 144, rfl⟩
abbrev main_v108 : Ref sig .tc := ⟨.hbm, 145, rfl⟩
abbrev main_v109 : Ref sig .tc := ⟨.hbm, 146, rfl⟩
abbrev main_c_24 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_25 : Ref sig .tc := ⟨.hbm, 154, rfl⟩
abbrev main_v116 : Ref sig .tc := ⟨.hbm, 155, rfl⟩
abbrev main_v117 : Ref sig .tc := ⟨.hbm, 156, rfl⟩
abbrev main_c_26 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_27 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_call1_cst : Ref sig .tc := ⟨.hbm, 178, rfl⟩
abbrev main_call1_v0 : Ref sig .tc := ⟨.hbm, 179, rfl⟩
abbrev main_call1_v1 : Ref sig .tc := ⟨.hbm, 180, rfl⟩
abbrev main_call1_v2 : Ref sig .tc := ⟨.hbm, 181, rfl⟩
abbrev main_call1_v3 : Ref sig .tc := ⟨.hbm, 182, rfl⟩
abbrev main_call1_v4 : Ref sig .tc := ⟨.hbm, 183, rfl⟩
abbrev main_call1_v5 : Ref sig .tc := ⟨.hbm, 184, rfl⟩
abbrev main_call1_v6 : Ref sig .tc := ⟨.hbm, 185, rfl⟩
abbrev main_call1_v7 : Ref sig .tc := ⟨.hbm, 186, rfl⟩
abbrev main_call1_v8 : Ref sig .tc := ⟨.hbm, 187, rfl⟩
abbrev main_call1_v9 : Ref sig .tc := ⟨.hbm, 188, rfl⟩
abbrev main_call1_v10 : Ref sig .tc := ⟨.hbm, 189, rfl⟩
abbrev main_call1_v11 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x64_S100000x64_1_0_0_1_n_n_wf : DotDims.WF S100000x512 S512x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's whole run, with its three result arrays named.

  @main is six segments: a stretch of host operations, a launch of the first kernel over its 25 row blocks, a second
  stretch, the second kernel, a third stretch, the third kernel. The contents of every buffer at each of the seven
  boundaries are a fold from the launch memory: a stretch applies its operations, a kernel leaves each of its output
  arrays at what its write-backs compose to and every other buffer as it found it. Every weakly fair execution
  terminates without a fault in a state whose buffers hold the last boundary's contents; read at the three result
  arrays and at the nine arguments this is the statement below (the arguments walk back to the launch memory, since
  no segment writes one).
-/
import proofs.«158133_j7078106103848_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main terminates, nothing faulting, with each result array at the last boundary's
    contents `W6` and each argument array as launched. -/
theorem run_W6 : θ_run defs (onTc (τ := τ) (main (F := F))) ⟨m, fun _ => 0, ρ⟩ (fun r => ∀ c : Dev nD,
      r.2.mem ((c.tc : Thread nD τ).loc main_v71_0) = W6 m ρ c (Proc.devRef .tc main_v71_0)
      ∧ r.2.mem ((c.tc : Thread nD τ).loc main_v71_1) = W6 m ρ c (Proc.devRef .tc main_v71_1)
      ∧ r.2.mem ((c.tc : Thread nD τ).loc main_v71_2) = W6 m ρ c (Proc.devRef .tc main_v71_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v71_0 (by decide)), h c _ (mem_uc main_v71_1 (by decide)), h c _ (mem_uc main_v71_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.Region0.lean ====
/-
  The first kernel's result array as one function of its two argument arrays.

  The launch walks 25 row blocks of 4000 rows. At block `t` the body loads rows 4000 t … 4000 t + 3999 of `x`
  (all 512 columns) and the whole of `w`, multiplies them on the matrix unit into a zero accumulator, and stores the
  4000 x 64 product as block `t` of the result (the two changes of float format are the identity on exact values).
  So block `t` of the result holds, at row `r` and column `q`, the sum over `k` of `x (4000 t + r, k) * w (k, q)`:
  it is block `t` of ONE function of the whole arrays, `rowsTimes x w`, and the 25 blocks tile the array.
-/
import proofs.«158133_j7078106103848_2_alg».proof.Proof.Gen.KernelIdeal.Frame
import proofs.«158133_j7078106103848_2_alg».proof.Proof.LibPlainDot
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `i` of `x` against column `j` of `w`. -/
def rowsTimes (x : S100000x512.Idx → EReal) (w : S512x64.Idx → EReal) : S100000x64.Idx → EReal :=
  fun i => ∑ k : Fin 512, x (ix2 (n0 := 100000) (i 0) k) * w (ix2 (n1 := 64) k (i 1))

theorem rowsTimes_apply (x : S100000x512.Idx → EReal) (w : S512x64.Idx → EReal) (i : Fin 100000) (j : Fin 64) :
    rowsTimes x w (ix2 i j) = ∑ k : Fin 512, x (ix2 i k) * w (ix2 k j) := rfl

/-- The body's stored value at row `r`, column `q` of the block: the row of the loaded block of `x` against the
    column of `w`. -/
theorem pay_apply (x0 : Vec Ideal S4000x512 .f32) (x1 : Vec Ideal S512x64 .f32) (r : Fin 4000) (q : Fin 64) :
    k0_pay1 (F := Ideal) x0 x1 (ix2 r q) = ∑ k : Fin 512, x0 (ix2 r k) * x1 (ix2 k q) := by
  unfold k0_pay1
  exact PlainDot.matmul_zero_apply (M := 4000) (K := 512) (N := 64) none
    (truncf .bf16 x0 bitsLt_bf16_f32) (truncf .bf16 x1 bitsLt_bf16_f32) r q

/-- The printed index maps over the 25 points: the block of `x` and the block of the result move together down the
    rows, block `t` at point `t`; `w` stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` at point `t` is rows 4000 t … of the array the region finds. -/
theorem iblk_x (c : Dev nD) (t : Fin cfg0.N) (r : Fin 4000) (k : Fin 512) (i : Fin 100000) (hi : i.val = 4000 * t.val + r.val) :
    (iblk0 V c 0 t : Vec Ideal S4000x512 .f32) (ix2 r k) = (V c main_arg0 : S100000x512.Idx → EReal) (ix2 i k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 4000 + 1 * r.val = i.val; omega
  | ⟨1, _⟩ => show win0_0.index t (1 : Fin 2) * 512 + 1 * k.val = k.val; omega

/-- The block of `w` at every point is the whole array. -/
theorem iblk_w (c : Dev nD) (t : Fin cfg0.N) (k : Fin 512) (q : Fin 64) :
    (iblk0 V c 1 t : Vec Ideal S512x64 .f32) (ix2 k q) = (V c main_arg2 : S512x64.Idx → EReal) (ix2 k q) := by
  obtain ⟨-, -, e2, e3, -⟩ := idx_facts t
  unfold iblk0
  rw [View.read_apply]
  show V c main_arg2 _ = V c main_arg2 _
  refine congrArg _ (funext fun a => Fin.ext ?_)
  match a with
  | ⟨0, _⟩ => show win0_1.index t (0 : Fin 2) * 512 + 1 * k.val = k.val; omega
  | ⟨1, _⟩ => show win0_1.index t (1 : Fin 2) * 64 + 1 * q.val = q.val; omega

/-- WHAT POINT `t` WRITES BACK is block `t` of `rowsTimes` of the two arrays as the region finds them. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x64) hz]
  obtain ⟨-, -, -, -, e4, e5⟩ := idx_facts t
  funext j
  obtain ⟨r, q, rfl⟩ : ∃ (r : Fin 4000) (q : Fin 64), j = ix2 r q := ⟨j 0, j 1, eq_ix2 j⟩
  have ht : t.val < 25 := by have h := t.isLt; have hN : cfg0.N = 25 := N_0; omega
  have hemb : ((cfg0.win 2).blk t).view.emb (ix2 r q) = ix2 (n0 := 100000) (n1 := 64) ⟨4000 * t.val + r.val, by omega⟩ q := by
    funext a; apply Fin.ext
    match a with
    | ⟨0, _⟩ => show win0_2.index t (0 : Fin 2) * 4000 + 1 * r.val = 4000 * t.val + r.val; omega
    | ⟨1, _⟩ => show win0_2.index t (1 : Fin 2) * 64 + 1 * q.val = q.val; omega
  refine (pay_apply (iblk0 V c 0 t) (iblk0 V c 1 t) r q).trans ?_
  rw [View.read_apply, hemb, rowsTimes_apply]
  exact Finset.sum_congr rfl fun k _ => by rw [iblk_x V c t r k ⟨4000 * t.val + r.val, by omega⟩ rfl, iblk_w V c t k q]

/-- The 25 row blocks tile the result: row `i` lies in block `i / 4000`. -/
theorem cover (i : S100000x64.Idx) : ∃ t : Fin cfg0.N, (cfg0.win 2).flush t = true ∧ i ∈ ((cfg0.win 2).blk t).view.set := by
  have h0 : (i 0).val < 100000 := idx2_lt0 i
  have h1 : (i 1).val < 64 := idx2_lt1 i
  obtain ⟨t, ht⟩ : ∃ t : Fin cfg0.N, t.val = (i 0).val / 4000 :=
    ⟨⟨(i 0).val / 4000, by rw [show cfg0.N = 25 from N_0]; omega⟩, rfl⟩
  obtain ⟨-, -, -, -, e4, e5⟩ := idx_facts t
  refine ⟨t, flush0_2 t, ?_⟩
  show i ∈ ((View.whole main_v27).slice (win0_2.rect t)).set
  rw [View.set_slice_whole, Rect.mem_set_unit]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- THE RESULT ARRAY after the launch: `rowsTimes` of the two argument arrays as the region finds them. -/
theorem final (c : Dev nD) : (dat0 V c).arrAt 2 cfg0.N = rowsTimes (V c main_arg0) (V c main_arg2) :=
  (dat0 V c).arrAt_eq_of_cover 2 (rowsTimes (V c main_arg0) (V c main_arg2)) (fun t _ => flushed_eq V c t) cover

end Cert.KernelIdeal.Region0

end
-- ==== Proof.Region1.lean ====
/-
  The second kernel's result array as one function of its three argument arrays.

  The launch walks 25 row blocks of 4000 rows. At block `t` the body loads rows 4000 t … of the aggregate `a` (64
  columns), the one row `b` of the bias and the whole 64 x 128 weight `w`; it adds the bias to every row, takes the
  maximum with zero, and multiplies by `w` on the matrix unit into a zero accumulator (the changes of float format
  and the casts between equal shapes are the identity). So block `t` of the result holds, at row `r` and column `q`,
  the sum over `k` of `max (a (4000 t + r, k) + b (0, k)) 0 * w (k, q)`: block `t` of ONE function of the whole
  arrays, `headProd a b w`, and the 25 blocks tile the array.
-/
import proofs.«158133_j7078106103848_2_alg».proof.Proof.Gen.KernelIdeal.Frame
import proofs.«158133_j7078106103848_2_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The exact value of the body's zero literal. -/
abbrev zeroLit : EReal := Ideal.ofBits .f32 0x00000000#32

/-- Row `i` of `max (a + b) 0` against column `j` of `w`. -/
def headProd (a : S100000x64.Idx → EReal) (b : S1x64.Idx → EReal) (w : S64x128.Idx → EReal) : S100000x128.Idx → EReal :=
  fun i => ∑ k : Fin 64, max (a (ix2 (n0 := 100000) (i 0) k) + b (ix2 (0 : Fin 1) k)) zeroLit * w (ix2 (n1 := 128) k (i 1))

theorem headProd_apply (a : S100000x64.Idx → EReal) (b : S1x64.Idx → EReal) (w : S64x128.Idx → EReal) (i : Fin 100000) (j : Fin 128) :
    headProd a b w (ix2 i j) = ∑ k : Fin 64, max (a (ix2 i k) + b (ix2 (0 : Fin 1) k)) zeroLit * w (ix2 k j) := rfl

/-- The body's stored value at row `r`, column `q` of the block. -/
theorem pay_apply (x0 : Vec Ideal S4000x64 .f32) (x1 : Vec Ideal S1x64 .f32) (x2 : Vec Ideal S64x128 .f32) (r : Fin 4000) (q : Fin 128) :
    k1_pay1 (F := Ideal) x0 x1 x2 (ix2 r q)
      = ∑ k : Fin 64, max (x0 (ix2 r k) + x1 (ix2 (0 : Fin 1) k)) zeroLit * x2 (ix2 k q) := by
  unfold k1_pay1
  refine (PlainDot.matmul_zero_apply (M := 4000) (K := 64) (N := 128) none
    (truncf .bf16 (maximumf (addf (shapeCast S4000x64 x0 shapeCasts_S4000x64_S4000x64)
        (broadcastTo S4000x64 (shapeCast S1x64 x1 shapeCasts_S1x64_S1x64) broadcasts_S1x64_S4000x64))
      (broadcast S4000x64 (Scalar.ofBits .f32 0x00000000#32))) bitsLt_bf16_f32)
    (truncf .bf16 (shapeCast S64x128 x2 shapeCasts_S64x128_S64x128) bitsLt_bf16_f32) r q).trans ?_
  refine Finset.sum_congr rfl fun k _ => ?_
  simp only [truncf_apply, maximumf_apply, addf_apply, broadcast_apply, shapeCast_self, broadcastTo_1b_ab_apply]
  rfl

/-- The printed index maps over the 25 points: the aggregate's block and the result's block move together down the
    rows, block `t` at point `t`; the bias row and the weight stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point `t` is rows 4000 t … of the array the region finds. -/
theorem iblk_a (c : Dev nD) (t : Fin cfg1.N) (r : Fin 4000) (k : Fin 64) (i : Fin 100000) (hi : i.val = 4000 * t.val + r.val) :
    (iblk1 V c 0 t : Vec Ideal S4000x64 .f32) (ix2 r k) = (V c main_v46 : S100000x64.Idx → EReal) (ix2 i k) := by
  obtain ⟨e0, e1, -⟩ := idx_facts t
  unfold iblk1
  rw [View.read_apply]
  show V c main_v46 _ = V c main_v46 _
  refine congrArg _ (funext fun a => Fin.ext ?_)
  match a with
  | ⟨0, _⟩ => show win1_0.index t (0 : Fin 2) * 4000 + 1 * r.val = i.val; omega
  | ⟨1, _⟩ => show win1_0.index t (1 : Fin 2) * 64 + 1 * k.val = k.val; omega

/-- The bias row's block at every point is the whole row. -/
theorem iblk_b (c : Dev nD) (t : Fin cfg1.N) (u : Fin 1) (k : Fin 64) :
    (iblk1 V c 1 t : Vec Ideal S1x64 .f32) (ix2 u k) = (V c main_v48 : S1x64.Idx → EReal) (ix2 u k) := by
  obtain ⟨-, -, e2, e3, -⟩ := idx_facts t
  unfold iblk1
  rw [View.read_apply]
  show V c main_v48 _ = V c main_v48 _
  refine congrArg _ (funext fun a => Fin.ext ?_)
  match a with
  | ⟨0, _⟩ => show win1_1.index t (0 : Fin 2) * 1 + 1 * u.val = u.val; omega
  | ⟨1, _⟩ => show win1_1.index t (1 : Fin 2) * 64 + 1 * k.val = k.val; omega

/-- The weight's block at every point is the whole array. -/
theorem iblk_w (c : Dev nD) (t : Fin cfg1.N) (k : Fin 64) (q : Fin 128) :
    (iblk1 V c 2 t : Vec Ideal S64x128 .f32) (ix2 k q) = (V c main_v47 : S64x128.Idx → EReal) (ix2 k q) := by
  obtain ⟨-, -, -, -, e4, e5, -⟩ := idx_facts t
  unfold iblk1
  rw [View.read_apply]
  show V c main_v47 _ = V c main_v47 _
  refine congrArg _ (funext fun a => Fin.ext ?_)
  match a with
  | ⟨0, _⟩ => show win1_2.index t (0 : Fin 2) * 64 + 1 * k.val = k.val; omega
  | ⟨1, _⟩ => show win1_2.index t (1 : Fin 2) * 128 + 1 * q.val = q.val; omega

/-- WHAT POINT `t` WRITES BACK is block `t` of `headProd` of the three arrays as the region finds them. -/
theorem flushed_eq (c : Dev nD) (t : Fin cfg1.N) :
    (dat1 V c).flushed 3 t
      = ((cfg1.win 3).blk t).view.read (Elt Ideal) (headProd (V c main_v46) (V c main_v48) (V c main_v47)) := by
  show (cfg1.win 3).cut (grid1.coords t) ((dat1 V c).after 3 t) = _
  rw [after1_3]
  unfold out1_3
  rw [View.canon_unit_zero hz]
  simp only [View.ld_unit_zero (S := S4000x64) hz, View.ld_unit_zero (S := S1x64) hz, View.ld_unit_zero (S := S64x128) hz]
  obtain ⟨-, -, -, -, -, -, e6, e7⟩ := idx_facts t
  funext j
  obtain ⟨r, q, rfl⟩ : ∃ (r : Fin 4000) (q : Fin 128), j = ix2 r q := ⟨j 0, j 1, eq_ix2 j⟩
  have ht : t.val < 25 := by have h := t.isLt; have hN : cfg1.N = 25 := N_1; omega
  have hemb : ((cfg1.win 3).blk t).view.emb (ix2 r q) = ix2 (n0 := 100000) (n1 := 128) ⟨4000 * t.val + r.val, by omega⟩ q := by
    funext a; apply Fin.ext
    match a with
    | ⟨0, _⟩ => show win1_3.index t (0 : Fin 2) * 4000 + 1 * r.val = 4000 * t.val + r.val; omega
    | ⟨1, _⟩ => show win1_3.index t (1 : Fin 2) * 128 + 1 * q.val = q.val; omega
  refine (pay_apply (iblk1 V c 0 t) (iblk1 V c 1 t) (iblk1 V c 2 t) r q).trans ?_
  rw [View.read_apply, hemb, headProd_apply]
  exact Finset.sum_congr rfl fun k _ => by
    rw [iblk_a V c t r k ⟨4000 * t.val + r.val, by omega⟩ rfl, iblk_b V c t 0 k, iblk_w V c t k q]

/-- The 25 row blocks tile the result: row `i` lies in block `i / 4000`. -/
theorem cover (i : S100000x128.Idx) : ∃ t : Fin cfg1.N, (cfg1.win 3).flush t = true ∧ i ∈ ((cfg1.win 3).blk t).view.set := by
  have h0 : (i 0).val < 100000 := idx2_lt0 i
  have h1 : (i 1).val < 128 := idx2_lt1 i
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, e6, e7⟩ := idx_facts t
  refine ⟨t, flush1_3 t, ?_⟩
  show i ∈ ((View.whole main_v49).slice (win1_3.rect t)).set
  rw [View.set_slice_whole, Rect.mem_set_unit]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- THE RESULT ARRAY after the launch: `headProd` of the three argument arrays as the region finds them. -/
theorem final (c : Dev nD) : (dat1 V c).arrAt 3 cfg1.N = headProd (V c main_v46) (V c main_v48) (V c main_v47) :=
  (dat1 V c).arrAt_eq_of_cover 3 (headProd (V c main_v46) (V c main_v48) (V c main_v47)) (fun t _ => flushed_eq V c t) cover

end Cert.KernelIdeal.Region1

end
-- ==== Proof.Region2.lean ====
/-
  The third kernel's three result arrays as functions of its four argument arrays.

  The launch walks 25 row blocks of 4000 rows. At block `t` the body loads rows 4000 t … of the 128-column aggregate
  `g`, the two bias rows `bm` and `bv`, and rows 4000 t … of the noise `e`. It cuts `g` into its low 64 columns and its
  high 64 columns; the first result is the low half plus `bm`; the second is the softplus of the high half plus `bv`
  (as the body spells it: the maximum with zero plus log1p of exp of minus the distance to zero, behind a
  self-comparison that never fires on exact values); the third is the first plus the second times the noise. Each of
  the three results is, block by block, ONE function of the whole arrays (`meanOf`, `varOf`, `sampleOf`), and the 25
  blocks tile each array.
-/
import proofs.«158133_j7078106103848_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Column `q` of the low half of a 128-column array … -/
def lo (q : Fin 64) : Fin 128 := ⟨q.val, by have := q.isLt; omega⟩
/-- … and of its high half. -/
def hi (q : Fin 64) : Fin 128 := ⟨64 + q.val, by have := q.isLt; omega⟩

/-- The body's zero literal. -/
abbrev zc : Ideal .f32 := Scalar.ofBits .f32 0x00000000#32

/-- The body's softplus on one element, as it spells it. -/
def spK (y : Ideal .f32) : Ideal .f32 :=
  Scalar.select (FloatOps.cmpf .one (FloatOps.subf y zc) (FloatOps.subf y zc)) (FloatOps.addf y zc)
    (FloatOps.addf (FloatOps.maximumf y zc)
      (FloatOps.log1p (FloatOps.exp (FloatOps.subf zc (FloatOps.absf (FloatOps.subf y zc))))))

/-- The same over a whole block. -/
def spVec (y : FVec Ideal S4000x64 .f32) : FVec Ideal S4000x64 .f32 :=
  select (cmpf .one (subf y (broadcast S4000x64 zc)) (subf y (broadcast S4000x64 zc))) (addf y (broadcast S4000x64 zc))
    (addf (maximumf y (broadcast S4000x64 zc))
      (log1p (exp (subf (broadcast S4000x64 zc) (absf (subf y (broadcast S4000x64 zc)))))))

theorem spVec_apply (y : FVec Ideal S4000x64 .f32) (i : S4000x64.Idx) : spVec y i = spK (y i) := rfl

/-- The first result: the low half of `g` plus the bias row. -/
def meanOf (g : S100000x128.Idx → EReal) (bm : S1x64.Idx → EReal) : S100000x64.Idx → EReal :=
  fun i => g (ix2 (n0 := 100000) (i 0) (lo (i 1))) + bm (ix2 (0 : Fin 1) (n1 := 64) (i 1))
/-- The second result: the softplus of the high half of `g` plus the bias row. -/
def varOf (g : S100000x128.Idx → EReal) (bv : S1x64.Idx → EReal) : S100000x64.Idx → EReal :=
  fun i => spK (g (ix2 (n0 := 100000) (i 0) (hi (i 1))) + bv (ix2 (0 : Fin 1) (n1 := 64) (i 1)))
/-- The third result: the first plus the second times the noise. -/
def sampleOf (g : S100000x128.Idx → EReal) (bm bv : S1x64.Idx → EReal) (e : S100000x64.Idx → EReal) : S100000x64.Idx → EReal :=
  fun i => meanOf g bm i + varOf g bv i * e i

theorem meanOf_apply (g : S100000x128.Idx → EReal) (bm : S1x64.Idx → EReal) (i : Fin 100000) (q : Fin 64) :
    meanOf g bm (ix2 i q) = g (ix2 i (lo q)) + bm (ix2 (0 : Fin 1) q) := rfl
theorem varOf_apply (g : S100000x128.Idx → EReal) (bv : S1x64.Idx → EReal) (i : Fin 100000) (q : Fin 64) :
    varOf g bv (ix2 i q) = spK (g (ix2 i (hi q)) + bv (ix2 (0 : Fin 1) q)) := rfl
theorem sampleOf_apply (g : S100000x128.Idx → EReal) (bm bv : S1x64.Idx → EReal) (e : S100000x64.Idx → EReal) (i : Fin 100000) (q : Fin 64) :
    sampleOf g bm bv e (ix2 i q) = meanOf g bm (ix2 i q) + varOf g bv (ix2 i q) * e (ix2 i q) := rfl

/-! ## The three stored values at row `r`, column `q` of the block -/

theorem pay2_apply (x0 : Vec Ideal S4000x128 .f32) (x1 : Vec Ideal S1x64 .f32) (r : Fin 4000) (q : Fin 64) :
    k2_pay2 (F := Ideal) x0 x1 (ix2 r q) = x0 (ix2 r (lo q)) + x1 (ix2 (0 : Fin 1) q) := by
  unfold k2_pay2 k2_pay1
  simp only [addf_apply, shapeCast_self, broadcastTo_1b_ab_apply]
  rw [slice2_axis1_apply 0 x0 _ r q (lo q) (by show q.val = 0 + q.val; omega)]

/-- The high half plus its bias row, over a block. -/
theorem pre3_apply (x0 : FVec Ideal S4000x128 .f32) (x2 : FVec Ideal S1x64 .f32) (r : Fin 4000) (q : Fin 64) :
    addf (extractStridedSlice S4000x64 ![0, 64] (shapeCast S4000x128 x0 shapeCasts_S4000x128_S4000x128) slices_S4000x128_o0_64_S4000x64)
        (broadcastTo S4000x64 (shapeCast S1x64 x2 shapeCasts_S1x64_S1x64) broadcasts_S1x64_S4000x64) (ix2 r q)
      = x0 (ix2 r (hi q)) + x2 (ix2 (0 : Fin 1) q) := by
  simp only [addf_apply, shapeCast_self, broadcastTo_1b_ab_apply]
  rw [slice2_axis1_apply 64 x0 _ r q (hi q) rfl]

theorem pay3_eq (x0 : FVec Ideal S4000x128 .f32) (x2 : FVec Ideal S1x64 .f32) :
    k2_pay3 (F := Ideal) x0 x2
      = spVec (addf (extractStridedSlice S4000x64 ![0, 64] (shapeCast S4000x128 x0 shapeCasts_S4000x128_S4000x128) slices_S4000x128_o0_64_S4000x64)
          (broadcastTo S4000x64 (shapeCast S1x64 x2 shapeCasts_S1x64_S1x64) broadcasts_S1x64_S4000x64)) := rfl

theorem pay3_apply (x0 : FVec Ideal S4000x128 .f32) (x2 : FVec Ideal S1x64 .f32) (r : Fin 4000) (q : Fin 64) :
    k2_pay3 (F := Ideal) x0 x2 (ix2 r q) = spK (x0 (ix2 r (hi q)) + x2 (ix2 (0 : Fin 1) q)) := by
  rw [pay3_eq, spVec_apply, pre3_apply]

theorem pay4_apply (x0 : Vec Ideal S4000x128 .f32) (x1 x2 : Vec Ideal S1x64 .f32) (x3 : Vec Ideal S4000x64 .f32) (r : Fin 4000) (q : Fin 64) :
    k2_pay4 (F := Ideal) x0 x1 x2 x3 (ix2 r q)
      = (x0 (ix2 r (lo q)) + x1 (ix2 (0 : Fin 1) q)) + spK (x0 (ix2 r (hi q)) + x2 (ix2 (0 : Fin 1) q)) * x3 (ix2 r q) := by
  unfold k2_pay4
  show k2_pay2 (F := Ideal) x0 x1 (ix2 r q) + k2_pay3 (F := Ideal) x0 x2 (ix2 r q) * x3 (ix2 r q) = _
  rw [pay2_apply, pay3_apply]

/-! ## The blocks -/

/-- The printed index maps over the 25 points: the blocks of `g`, of the noise and of the three results move
    together down the rows, block `t` at point `t`; the two bias rows stay at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

theorem iblk_g (c : Dev nD) (t : Fin cfg2.N) (r : Fin 4000) (k : Fin 128) (i : Fin 100000) (hi' : i.val = 4000 * t.val + r.val) :
    (iblk2 V c 0 t : Vec Ideal S4000x128 .f32) (ix2 r k) = (V c main_v68 : S100000x128.Idx → EReal) (ix2 i k) := by
  obtain ⟨e0, e1, -⟩ := idx_facts t
  unfold iblk2
  rw [View.read_apply]
  show V c main_v68 _ = V c main_v68 _
  refine congrArg _ (funext fun a => Fin.ext ?_)
  match a with
  | ⟨0, _⟩ => show win2_0.index t (0 : Fin 2) * 4000 + 1 * r.val = i.val; omega
  | ⟨1, _⟩ => show win2_0.index t (1 : Fin 2) * 128 + 1 * k.val = k.val; omega

theorem iblk_bm (c : Dev nD) (t : Fin cfg2.N) (u : Fin 1) (k : Fin 64) :
    (iblk2 V c 1 t : Vec Ideal S1x64 .f32) (ix2 u k) = (V c main_v69 : S1x64.Idx → EReal) (ix2 u k) := by
  obtain ⟨-, -, e2, e3, -⟩ := idx_facts t
  unfold iblk2
  rw [View.read_apply]
  show V c main_v69 _ = V c main_v69 _
  refine congrArg _ (funext fun a => Fin.ext ?_)
  match a with
  | ⟨0, _⟩ => show win2_1.index t (0 : Fin 2) * 1 + 1 * u.val = u.val; omega
  | ⟨1, _⟩ => show win2_1.index t (1 : Fin 2) * 64 + 1 * k.val = k.val; omega

theorem iblk_bv (c : Dev nD) (t : Fin cfg2.N) (u : Fin 1) (k : Fin 64) :
    (iblk2 V c 2 t : Vec Ideal S1x64 .f32) (ix2 u k) = (V c main_v70 : S1x64.Idx → EReal) (ix2 u k) := by
  obtain ⟨-, -, -, -, e4, e5, -⟩ := idx_facts t
  unfold iblk2
  rw [View.read_apply]
  show V c main_v70 _ = V c main_v70 _
  refine congrArg _ (funext fun a => Fin.ext ?_)
  match a with
  | ⟨0, _⟩ => show win2_2.index t (0 : Fin 2) * 1 + 1 * u.val = u.val; omega
  | ⟨1, _⟩ => show win2_2.index t (1 : Fin 2) * 64 + 1 * k.val = k.val; omega

theorem iblk_e (c : Dev nD) (t : Fin cfg2.N) (r : Fin 4000) (k : Fin 64) (i : Fin 100000) (hi' : i.val = 4000 * t.val + r.val) :
    (iblk2 V c 3 t : Vec Ideal S4000x64 .f32) (ix2 r k) = (V c main_arg8 : S100000x64.Idx → EReal) (ix2 i k) := by
  obtain ⟨-, -, -, -, -, -, e6, e7, -⟩ := idx_facts t
  unfold iblk2
  rw [View.read_apply]
  show V c main_arg8 _ = V c main_arg8 _
  refine congrArg _ (funext fun a => Fin.ext ?_)
  match a with
  | ⟨0, _⟩ => show win2_3.index t (0 : Fin 2) * 4000 + 1 * r.val = i.val; omega
  | ⟨1, _⟩ => show win2_3.index t (1 : Fin 2) * 64 + 1 * k.val = k.val; omega

/-- Where block `t` of an output window puts its row `r`, column `q`. -/
theorem emb_out (t : Fin cfg2.N) (ht : t.val < 25) (r : Fin 4000) (q : Fin 64) :
    ((cfg2.win 4).blk t).view.emb (ix2 r q) = ix2 (n0 := 100000) (n1 := 64) ⟨4000 * t.val + r.val, by omega⟩ q
    ∧ ((cfg2.win 5).blk t).view.emb (ix2 r q) = ix2 (n0 := 100000) (n1 := 64) ⟨4000 * t.val + r.val, by omega⟩ q
    ∧ ((cfg2.win 6).blk t).view.emb (ix2 r q) = ix2 (n0 := 100000) (n1 := 64) ⟨4000 * t.val + r.val, by omega⟩ q := by
  obtain ⟨-, -, -, -, -, -, -, -, e8, e9, e10, e11, e12, e13⟩ := idx_facts t
  refine ⟨?_, ?_, ?_⟩ <;> (funext a; apply Fin.ext)
  · match a with
    | ⟨0, _⟩ => show win2_4.index t (0 : Fin 2) * 4000 + 1 * r.val = 4000 * t.val + r.val; omega
    | ⟨1, _⟩ => show win2_4.index t (1 : Fin 2) * 64 + 1 * q.val = q.val; omega
  · match a with
    | ⟨0, _⟩ => show win2_5.index t (0 : Fin 2) * 4000 + 1 * r.val = 4000 * t.val + r.val; omega
    | ⟨1, _⟩ => show win2_5.index t (1 : Fin 2) * 64 + 1 * q.val = q.val; omega
  · match a with
    | ⟨0, _⟩ => show win2_6.index t (0 : Fin 2) * 4000 + 1 * r.val = 4000 * t.val + r.val; omega
    | ⟨1, _⟩ => show win2_6.index t (1 : Fin 2) * 64 + 1 * q.val = q.val; omega

theorem lt25 (t : Fin cfg2.N) : t.val < 25 := by have h := t.isLt; have hN : cfg2.N = 25 := N_2; omega

/-- WHAT POINT `t` WRITES BACK to the first result is block `t` of `meanOf`. -/
theorem flushed_mean (c : Dev nD) (t : Fin cfg2.N) :
    (dat2 V c).flushed 4 t = ((cfg2.win 4).blk t).view.read (Elt Ideal) (meanOf (V c main_v68) (V c main_v69)) := by
  show (cfg2.win 4).cut (grid2.coords t) ((dat2 V c).after 4 t) = _
  rw [after2_4]
  unfold out2_4
  rw [View.canon_unit_zero hz]
  simp only [View.ld_unit_zero (S := S4000x128) hz, View.ld_unit_zero (S := S1x64) hz]
  funext j
  obtain ⟨r, q, rfl⟩ : ∃ (r : Fin 4000) (q : Fin 64), j = ix2 r q := ⟨j 0, j 1, eq_ix2 j⟩
  have ht := lt25 t
  refine (pay2_apply (iblk2 V c 0 t) (iblk2 V c 1 t) r q).trans ?_
  rw [View.read_apply, (emb_out t ht r q).1, meanOf_apply,
    iblk_g V c t r (lo q) ⟨4000 * t.val + r.val, by omega⟩ rfl, iblk_bm V c t 0 q]
  rfl

/-- WHAT POINT `t` WRITES BACK to the second result is block `t` of `varOf`. -/
theorem flushed_var (c : Dev nD) (t : Fin cfg2.N) :
    (dat2 V c).flushed 5 t = ((cfg2.win 5).blk t).view.read (Elt Ideal) (varOf (V c main_v68) (V c main_v70)) := by
  show (cfg2.win 5).cut (grid2.coords t) ((dat2 V c).after 5 t) = _
  rw [after2_5]
  unfold out2_5
  rw [View.canon_unit_zero hz]
  simp only [View.ld_unit_zero (S := S4000x128) hz, View.ld_unit_zero (S := S1x64) hz]
  funext j
  obtain ⟨r, q, rfl⟩ : ∃ (r : Fin 4000) (q : Fin 64), j = ix2 r q := ⟨j 0, j 1, eq_ix2 j⟩
  have ht := lt25 t
  refine (pay3_apply (iblk2 V c 0 t) (iblk2 V c 2 t) r q).trans ?_
  rw [View.read_apply, (emb_out t ht r q).2.1, varOf_apply,
    iblk_g V c t r (hi q) ⟨4000 * t.val + r.val, by omega⟩ rfl, iblk_bv V c t 0 q]
  rfl

/-- WHAT POINT `t` WRITES BACK to the third result is block `t` of `sampleOf`. -/
theorem flushed_sample (c : Dev nD) (t : Fin cfg2.N) :
    (dat2 V c).flushed 6 t
      = ((cfg2.win 6).blk t).view.read (Elt Ideal) (sampleOf (V c main_v68) (V c main_v69) (V c main_v70) (V c main_arg8)) := by
  show (cfg2.win 6).cut (grid2.coords t) ((dat2 V c).after 6 t) = _
  rw [after2_6]
  unfold out2_6
  rw [View.canon_unit_zero hz]
  simp only [View.ld_unit_zero (S := S4000x128) hz, View.ld_unit_zero (S := S1x64) hz, View.ld_unit_zero (S := S4000x64) hz]
  funext j
  obtain ⟨r, q, rfl⟩ : ∃ (r : Fin 4000) (q : Fin 64), j = ix2 r q := ⟨j 0, j 1, eq_ix2 j⟩
  have ht := lt25 t
  refine (pay4_apply (iblk2 V c 0 t) (iblk2 V c 1 t) (iblk2 V c 2 t) (iblk2 V c 3 t) r q).trans ?_
  rw [View.read_apply, (emb_out t ht r q).2.2, sampleOf_apply, meanOf_apply, varOf_apply,
    iblk_g V c t r (lo q) ⟨4000 * t.val + r.val, by omega⟩ rfl, iblk_g V c t r (hi q) ⟨4000 * t.val + r.val, by omega⟩ rfl,
    iblk_bm V c t 0 q, iblk_bv V c t 0 q, iblk_e V c t r q ⟨4000 * t.val + r.val, by omega⟩ rfl]
  rfl

/-- The 25 row blocks tile each result: row `i` lies in block `i / 4000`. -/
theorem cover (i : S100000x64.Idx) :
    (∃ t : Fin cfg2.N, (cfg2.win 4).flush t = true ∧ i ∈ ((cfg2.win 4).blk t).view.set)
    ∧ (∃ t : Fin cfg2.N, (cfg2.win 5).flush t = true ∧ i ∈ ((cfg2.win 5).blk t).view.set)
    ∧ (∃ t : Fin cfg2.N, (cfg2.win 6).flush t = true ∧ i ∈ ((cfg2.win 6).blk t).view.set) := by
  have h0 : (i 0).val < 100000 := idx2_lt0 i
  have h1 : (i 1).val < 64 := idx2_lt1 i
  obtain ⟨t, ht⟩ : ∃ t : Fin cfg2.N, t.val = (i 0).val / 4000 :=
    ⟨⟨(i 0).val / 4000, by rw [show cfg2.N = 25 from N_2]; omega⟩, rfl⟩
  obtain ⟨-, -, -, -, -, -, -, -, e8, e9, e10, e11, e12, e13⟩ := idx_facts t
  refine ⟨⟨t, flush2_4 t, ?_⟩, ⟨t, flush2_5 t, ?_⟩, ⟨t, flush2_6 t, ?_⟩⟩
  · show i ∈ ((View.whole main_v71_0).slice (win2_4.rect t)).set
    rw [View.set_slice_whole, Rect.mem_set_unit]
    intro a
    match a with
    | ⟨0, _⟩ => show win2_4.index t (0 : Fin 2) * 4000 ≤ (i 0).val ∧ (i 0).val < win2_4.index t (0 : Fin 2) * 4000 + 4000; omega
    | ⟨1, _⟩ => show win2_4.index t (1 : Fin 2) * 64 ≤ (i 1).val ∧ (i 1).val < win2_4.index t (1 : Fin 2) * 64 + 64; omega
  · show i ∈ ((View.whole main_v71_1).slice (win2_5.rect t)).set
    rw [View.set_slice_whole, Rect.mem_set_unit]
    intro a
    match a with
    | ⟨0, _⟩ => show win2_5.index t (0 : Fin 2) * 4000 ≤ (i 0).val ∧ (i 0).val < win2_5.index t (0 : Fin 2) * 4000 + 4000; omega
    | ⟨1, _⟩ => show win2_5.index t (1 : Fin 2) * 64 ≤ (i 1).val ∧ (i 1).val < win2_5.index t (1 : Fin 2) * 64 + 64; omega
  · show i ∈ ((View.whole main_v71_2).slice (win2_6.rect t)).set
    rw [View.set_slice_whole, Rect.mem_set_unit]
    intro a
    match a with
    | ⟨0, _⟩ => show win2_6.index t (0 : Fin 2) * 4000 ≤ (i 0).val ∧ (i 0).val < win2_6.index t (0 : Fin 2) * 4000 + 4000; omega
    | ⟨1, _⟩ => show win2_6.index t (1 : Fin 2) * 64 ≤ (i 1).val ∧ (i 1).val < win2_6.index t (1 : Fin 2) * 64 + 64; omega

/-- THE THREE RESULT ARRAYS after the launch. -/
theorem final_mean (c : Dev nD) : (dat2 V c).arrAt 4 cfg2.N = meanOf (V c main_v68) (V c main_v69) :=
  (dat2 V c).arrAt_eq_of_cover 4 (meanOf (V c main_v68) (V c main_v69)) (fun t _ => flushed_mean V c t) fun i => (cover i).1
theorem final_var (c : Dev nD) : (dat2 V c).arrAt 5 cfg2.N = varOf (V c main_v68) (V c main_v70) :=
  (dat2 V c).arrAt_eq_of_cover 5 (varOf (V c main_v68) (V c main_v70)) (fun t _ => flushed_var V c t) fun i => (cover i).2.1
theorem final_sample (c : Dev nD) :
    (dat2 V c).arrAt 6 cfg2.N = sampleOf (V c main_v68) (V c main_v69) (V c main_v70) (V c main_arg8) :=
  (dat2 V c).arrAt_eq_of_cover 6 (sampleOf (V c main_v68) (V c main_v69) (V c main_v70) (V c main_arg8))
    (fun t _ => flushed_sample V c t) fun i => (cover i).2.2

end Cert.KernelIdeal.Region2

end
-- ==== Proof.HostK.lean ====
/-
  The host operations between the kernel launches, as functions.

  Before the first launch the program computes, from the edge list alone, the degree of every node (one plus the
  number of edges arriving at it), its inverse square root `dinv`, the square `dinv2`, and for every edge the product
  `norm` of `dinv` at its source and at its destination (a negative node number counts from the end). After the
  first and after the second launch it aggregates the launch's result `Y` over the graph: every node receives the
  sum, over the edges arriving at it, of `Y` at the edge's source times the edge's `norm`, plus its own row of `Y`
  times `dinv2` — once 64 columns wide, once 128 columns wide. The other operations reshape the three bias vectors
  into rows and concatenate the two head weights side by side.

  Each theorem below reads one buffer at one boundary of the run: what a stretch computes as these functions of what
  the previous boundary held, and what it leaves untouched.
-/
import proofs.«158133_j7078106103848_2_alg».proof.Proof.Gen.KernelIdeal.Frame
import Idealize.ShloMosaic.Lib.StableHlo.Run
import Idealize.ShloMosaic.Lib.ValueIdx

set_option maxRecDepth 16384

noncomputable section

open scoped BigOperators

namespace Cert.KernelIdeal.HostK

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo

/-- The contents of a buffer of shape `s` and element type `e` at the exact values. -/
abbrev C (s : Shape) (e : EltTy) : Type := (⟨s, e⟩ : BufTy).Contents (Elt Ideal)

/-! ## The functions -/

/-- The source node of every edge … -/
def src (ei : C S2x1600000 .i32) : C S1600000 .i32 :=
  shapeCast _ (extractStridedSlice S1x1600000 ![0, 0] ei slices_S2x1600000_S1x1600000_0_0) shapeCasts_S1x1600000_S1600000
/-- … and its destination node. -/
def dst (ei : C S2x1600000 .i32) : C S1600000 .i32 :=
  shapeCast _ (extractStridedSlice S1x1600000 ![1, 0] ei slices_S2x1600000_S1x1600000_1_0) shapeCasts_S1x1600000_S1600000

/-- A negative node number counts from the end. -/
def wrap (v : C S1600000 .i32) : C S1600000 .i32 :=
  select (cmpi .slt v (broadcastInDim S1600000 ![] bcast_S_S1600000 (constantI S_ 32 0#32)))
    (addi v (broadcastInDim S1600000 ![] bcast_S_S1600000 (constantI S_ 32 100000#32))) v

/-- One plus the number of edges arriving at each node. -/
def deg (d : C S1600000 .i32) : FVec Ideal S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

/-- The inverse square root of the degree … -/
def dinv (d : C S1600000 .i32) : FVec Ideal S100000 .f32 := Host.rsqrt (deg d)
/-- … and its square. -/
def dinv2 (d : C S1600000 .i32) : FVec Ideal S100000 .f32 := mulf (dinv d) (dinv d)

/-- Every edge's weight: `dinv` at its source times `dinv` at its destination. -/
def norm (s d : C S1600000 .i32) : FVec Ideal S1600000 .f32 :=
  mulf (Host.gather gather_S100000_S1600000x1_S1600000_n_0_n_n_0_1_1 (dinv d)
      (broadcastInDim S1600000x1 ![0] bcast_S1600000_S1600000x1_0 (wrap s)))
    (Host.gather gather_S100000_S1600000x1_S1600000_n_0_n_n_0_1_1 (dinv d)
      (broadcastInDim S1600000x1 ![0] bcast_S1600000_S1600000x1_0 (wrap d)))

/-- The aggregate of a 64-column array over the graph. -/
def agg64 (s d : C S1600000 .i32) (nrm : FVec Ideal S1600000 .f32) (dv2 : FVec Ideal S100000 .f32) (Y : FVec Ideal S100000x64 .bf16) : FVec Ideal S100000x64 .f32 :=
  addf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (mulf (extf .f32 (Host.gather gather_S100000x64_S1600000x1_S1600000x64_1_0_n_n_0_1_164 Y
            (broadcastInDim S1600000x1 ![0] bcast_S1600000_S1600000x1_0 (wrap s))) bitsLt_bf16_f32)
        (broadcastInDim S1600000x64 ![0, 1] bcast_S1600000x1_S1600000x64_0_1
          (broadcastInDim S1600000x1 ![0] bcast_S1600000_S1600000x1_0 nrm))))
    (mulf (extf .f32 Y bitsLt_bf16_f32)
      (broadcastInDim S100000x64 ![0, 1] bcast_S100000x1_S100000x64_0_1
        (broadcastInDim S100000x1 ![0] bcast_S100000_S100000x1_0 dv2)))

/-- The aggregate of a 128-column array over the graph. -/
def agg128 (s d : C S1600000 .i32) (nrm : FVec Ideal S1600000 .f32) (dv2 : FVec Ideal S100000 .f32) (Y : FVec Ideal S100000x128 .bf16) : FVec Ideal S100000x128 .f32 :=
  addf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (mulf (extf .f32 (Host.gather gather_S100000x128_S1600000x1_S1600000x128_1_0_n_n_0_1_1128 Y
            (broadcastInDim S1600000x1 ![0] bcast_S1600000_S1600000x1_0 (wrap s))) bitsLt_bf16_f32)
        (broadcastInDim S1600000x128 ![0, 1] bcast_S1600000x1_S1600000x128_0_1
          (broadcastInDim S1600000x1 ![0] bcast_S1600000_S1600000x1_0 nrm))))
    (mulf (extf .f32 Y bitsLt_bf16_f32)
      (broadcastInDim S100000x128 ![0, 1] bcast_S100000x1_S100000x128_0_1
        (broadcastInDim S100000x1 ![0] bcast_S100000_S100000x1_0 dv2)))

/-- The two head weights side by side. -/
def wcat (a b : FVec Ideal S64x64 .f32) : FVec Ideal S64x128 .f32 :=
  concatenate S64x128 1 [⟨S64x64, a⟩, ⟨S64x64, b⟩] concatenates_S64x64_S64x64_S64x128_d1

/-- A bias vector as one row. -/
def row (b : FVec Ideal S64 .f32) : FVec Ideal S1x64 .f32 := shapeCast _ b shapeCasts_S64_S1x64

/-! ## The boundaries of the run -/

variable (m : (ℓ : Loc nD τ sig) → Buf (Elt Ideal) ℓ) (ρ : Dev nD → PrngReg)

/-- The launch memory at a buffer. -/
theorem W0_eq (c : Dev nD) (b : Ref sig .tc) : W0 m ρ c (Proc.devRef .tc b) = m ((c : Thread nD τ).loc b) := rfl

/-! ### The first stretch -/

set_option maxHeartbeats 4000000 in
set_option maxRecDepth 65536 in
theorem first_src (c : Dev nD) : W1 m ρ c (Proc.devRef .tc main_v1) = src (m ((c : Thread nD τ).loc main_arg1)) := by
  show StableHlo.after hostOps0 (W0 m ρ c) (Proc.devRef .tc main_v1) = _
  after_results_simp
  rfl
set_option maxHeartbeats 4000000 in
set_option maxRecDepth 65536 in
theorem first_dst (c : Dev nD) : W1 m ρ c (Proc.devRef .tc main_v3) = dst (m ((c : Thread nD τ).loc main_arg1)) := by
  show StableHlo.after hostOps0 (W0 m ρ c) (Proc.devRef .tc main_v3) = _
  after_results_simp
  rfl
set_option maxHeartbeats 4000000 in
set_option maxRecDepth 65536 in
theorem first_dinv2 (c : Dev nD) : W1 m ρ c (Proc.devRef .tc main_v11) = dinv2 (dst (m ((c : Thread nD τ).loc main_arg1))) := by
  show StableHlo.after hostOps0 (W0 m ρ c) (Proc.devRef .tc main_v11) = _
  after_results_simp
  rfl
set_option maxHeartbeats 4000000 in
set_option maxRecDepth 65536 in
theorem first_norm (c : Dev nD) : W1 m ρ c (Proc.devRef .tc main_v26)
    = norm (src (m ((c : Thread nD τ).loc main_arg1))) (dst (m ((c : Thread nD τ).loc main_arg1))) := by
  show StableHlo.after hostOps0 (W0 m ρ c) (Proc.devRef .tc main_v26) = _
  after_results_simp
  rfl
theorem kept1_main_arg0 (c : Dev nD) : W1 m ρ c (Proc.devRef .tc main_arg0) = W0 m ρ c (Proc.devRef .tc main_arg0) := by
  show StableHlo.after hostOps0 (W0 m ρ c) (Proc.devRef .tc main_arg0) = _
  after_results
theorem kept1_main_arg2 (c : Dev nD) : W1 m ρ c (Proc.devRef .tc main_arg2) = W0 m ρ c (Proc.devRef .tc main_arg2) := by
  show StableHlo.after hostOps0 (W0 m ρ c) (Proc.devRef .tc main_arg2) = _
  after_results
theorem kept1_main_arg3 (c : Dev nD) : W1 m ρ c (Proc.devRef .tc main_arg3) = W0 m ρ c (Proc.devRef .tc main_arg3) := by
  show StableHlo.after hostOps0 (W0 m ρ c) (Proc.devRef .tc main_arg3) = _
  after_results
theorem kept1_main_arg4 (c : Dev nD) : W1 m ρ c (Proc.devRef .tc main_arg4) = W0 m ρ c (Proc.devRef .tc main_arg4) := by
  show StableHlo.after hostOps0 (W0 m ρ c) (Proc.devRef .tc main_arg4) = _
  after_results
theorem kept1_main_arg5 (c : Dev nD) : W1 m ρ c (Proc.devRef .tc main_arg5) = W0 m ρ c (Proc.devRef .tc main_arg5) := by
  show StableHlo.after hostOps0 (W0 m ρ c) (Proc.devRef .tc main_arg5) = _
  after_results
theorem kept1_main_arg6 (c : Dev nD) : W1 m ρ c (Proc.devRef .tc main_arg6) = W0 m ρ c (Proc.devRef .tc main_arg6) := by
  show StableHlo.after hostOps0 (W0 m ρ c) (Proc.devRef .tc main_arg6) = _
  after_results
theorem kept1_main_arg7 (c : Dev nD) : W1 m ρ c (Proc.devRef .tc main_arg7) = W0 m ρ c (Proc.devRef .tc main_arg7) := by
  show StableHlo.after hostOps0 (W0 m ρ c) (Proc.devRef .tc main_arg7) = _
  after_results
theorem kept1_main_arg8 (c : Dev nD) : W1 m ρ c (Proc.devRef .tc main_arg8) = W0 m ρ c (Proc.devRef .tc main_arg8) := by
  show StableHlo.after hostOps0 (W0 m ρ c) (Proc.devRef .tc main_arg8) = _
  after_results

/-! ### The second stretch -/

set_option maxHeartbeats 4000000 in
set_option maxRecDepth 65536 in
theorem second_agg (c : Dev nD) : W3 m ρ c (Proc.devRef .tc main_v46)
    = agg64 (W2 m ρ c (Proc.devRef .tc main_v1)) (W2 m ρ c (Proc.devRef .tc main_v3)) (W2 m ρ c (Proc.devRef .tc main_v26))
        (W2 m ρ c (Proc.devRef .tc main_v11)) (W2 m ρ c (Proc.devRef .tc main_v27)) := by
  show StableHlo.after hostOps1 (W2 m ρ c) (Proc.devRef .tc main_v46) = _
  after_results_simp
  rfl
set_option maxHeartbeats 4000000 in
set_option maxRecDepth 65536 in
theorem second_wcat (c : Dev nD) : W3 m ρ c (Proc.devRef .tc main_v47)
    = wcat (W2 m ρ c (Proc.devRef .tc main_arg4)) (W2 m ρ c (Proc.devRef .tc main_arg6)) := by
  show StableHlo.after hostOps1 (W2 m ρ c) (Proc.devRef .tc main_v47) = _
  after_results_simp
  rfl
set_option maxHeartbeats 4000000 in
set_option maxRecDepth 65536 in
theorem second_row (c : Dev nD) : W3 m ρ c (Proc.devRef .tc main_v48) = row (W2 m ρ c (Proc.devRef .tc main_arg3)) := by
  show StableHlo.after hostOps1 (W2 m ρ c) (Proc.devRef .tc main_v48) = _
  after_results_simp
  rfl
theorem kept3_main_v1 (c : Dev nD) : W3 m ρ c (Proc.devRef .tc main_v1) = W2 m ρ c (Proc.devRef .tc main_v1) := by
  show StableHlo.after hostOps1 (W2 m ρ c) (Proc.devRef .tc main_v1) = _
  after_results
theorem kept3_main_v3 (c : Dev nD) : W3 m ρ c (Proc.devRef .tc main_v3) = W2 m ρ c (Proc.devRef .tc main_v3) := by
  show StableHlo.after hostOps1 (W2 m ρ c) (Proc.devRef .tc main_v3) = _
  after_results
theorem kept3_main_v11 (c : Dev nD) : W3 m ρ c (Proc.devRef .tc main_v11) = W2 m ρ c (Proc.devRef .tc main_v11) := by
  show StableHlo.after hostOps1 (W2 m ρ c) (Proc.devRef .tc main_v11) = _
  after_results
theorem kept3_main_v26 (c : Dev nD) : W3 m ρ c (Proc.devRef .tc main_v26) = W2 m ρ c (Proc.devRef .tc main_v26) := by
  show StableHlo.after hostOps1 (W2 m ρ c) (Proc.devRef .tc main_v26) = _
  after_results
theorem kept3_main_arg5 (c : Dev nD) : W3 m ρ c (Proc.devRef .tc main_arg5) = W2 m ρ c (Proc.devRef .tc main_arg5) := by
  show StableHlo.after hostOps1 (W2 m ρ c) (Proc.devRef .tc main_arg5) = _
  after_results
theorem kept3_main_arg7 (c : Dev nD) : W3 m ρ c (Proc.devRef .tc main_arg7) = W2 m ρ c (Proc.devRef .tc main_arg7) := by
  show StableHlo.after hostOps1 (W2 m ρ c) (Proc.devRef .tc main_arg7) = _
  after_results
theorem kept3_main_arg8 (c : Dev nD) : W3 m ρ c (Proc.devRef .tc main_arg8) = W2 m ρ c (Proc.devRef .tc main_arg8) := by
  show StableHlo.after hostOps1 (W2 m ρ c) (Proc.devRef .tc main_arg8) = _
  after_results

/-! ### The third stretch -/

set_option maxHeartbeats 4000000 in
set_option maxRecDepth 65536 in
theorem third_agg (c : Dev nD) : W5 m ρ c (Proc.devRef .tc main_v68)
    = agg128 (W4 m ρ c (Proc.devRef .tc main_v1)) (W4 m ρ c (Proc.devRef .tc main_v3)) (W4 m ρ c (Proc.devRef .tc main_v26))
        (W4 m ρ c (Proc.devRef .tc main_v11)) (W4 m ρ c (Proc.devRef .tc main_v49)) := by
  show StableHlo.after hostOps2 (W4 m ρ c) (Proc.devRef .tc main_v68) = _
  after_results_simp
  rfl
set_option maxHeartbeats 4000000 in
set_option maxRecDepth 65536 in
theorem third_row_mu (c : Dev nD) : W5 m ρ c (Proc.devRef .tc main_v69) = row (W4 m ρ c (Proc.devRef .tc main_arg5)) := by
  show StableHlo.after hostOps2 (W4 m ρ c) (Proc.devRef .tc main_v69) = _
  after_results_simp
  rfl
set_option maxHeartbeats 4000000 in
set_option maxRecDepth 65536 in
theorem third_row_var (c : Dev nD) : W5 m ρ c (Proc.devRef .tc main_v70) = row (W4 m ρ c (Proc.devRef .tc main_arg7)) := by
  show StableHlo.after hostOps2 (W4 m ρ c) (Proc.devRef .tc main_v70) = _
  after_results_simp
  rfl
theorem kept5_main_arg8 (c : Dev nD) : W5 m ρ c (Proc.devRef .tc main_arg8) = W4 m ρ c (Proc.devRef .tc main_arg8) := by
  show StableHlo.after hostOps2 (W4 m ρ c) (Proc.devRef .tc main_arg8) = _
  after_results

end Cert.KernelIdeal.HostK

end
-- ==== Proof.Whole.lean ====
/-
  The idealized kernel's three results as closed functions of its nine arguments.

  Walking the run's boundaries from the launch memory: the first stretch computes the edge quantities from the edge
  list; the first launch leaves `x · W1`; the second stretch aggregates it over the graph; the second launch leaves the
  rectified, biased aggregate times the two head weights side by side; the third stretch aggregates that, 128 columns
  wide; the third launch splits it, adds the biases, applies the softplus to the high half and draws the sample.
  Nothing else touches the buffers these steps read, so each boundary's contents are the previous one's. The last
  theorem restates the kernel's run with the three result arrays at these closed forms.
-/
import proofs.«158133_j7078106103848_2_alg».proof.Proof.KernelRun
import proofs.«158133_j7078106103848_2_alg».proof.Proof.Region0
import proofs.«158133_j7078106103848_2_alg».proof.Proof.Region1
import proofs.«158133_j7078106103848_2_alg».proof.Proof.Region2
import proofs.«158133_j7078106103848_2_alg».proof.Proof.HostK

set_option maxRecDepth 16384

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

open Cert.KernelIdeal.HostK

variable (m : (ℓ : Loc nD τ sig) → Buf (Elt Ideal) ℓ) (ρ : Dev nD → PrngReg)

/-! ## The closed forms -/

/-- The edge list. -/
abbrev ei (c : Dev nD) : C S2x1600000 .i32 := (m ((c : Thread nD τ).loc main_arg1))
/-- Every edge's weight and every node's `dinv2`, from the edge list. -/
abbrev nrm (c : Dev nD) : FVec Ideal S1600000 .f32 := norm (src (ei m c)) (dst (ei m c))
abbrev dv2 (c : Dev nD) : FVec Ideal S100000 .f32 := dinv2 (dst (ei m c))

/-- `x · W1`. -/
def xw1 (c : Dev nD) : FVec Ideal S100000x64 .bf16 := Region0.rowsTimes (m ((c : Thread nD τ).loc main_arg0)) (m ((c : Thread nD τ).loc main_arg2))
/-- Its aggregate over the graph. -/
def agg1 (c : Dev nD) : FVec Ideal S100000x64 .f32 := agg64 (src (ei m c)) (dst (ei m c)) (nrm m c) (dv2 m c) (xw1 m c)
/-- The rectified, biased aggregate times the two head weights side by side. -/
def ycat (c : Dev nD) : FVec Ideal S100000x128 .bf16 :=
  Region1.headProd (agg1 m c) (row (m ((c : Thread nD τ).loc main_arg3))) (wcat (m ((c : Thread nD τ).loc main_arg4)) (m ((c : Thread nD τ).loc main_arg6)))
/-- Its aggregate over the graph, 128 columns wide. -/
def gcat (c : Dev nD) : FVec Ideal S100000x128 .f32 := agg128 (src (ei m c)) (dst (ei m c)) (nrm m c) (dv2 m c) (ycat m c)
/-- The three results. -/
def out0 (c : Dev nD) : S100000x64.Idx → EReal := Region2.meanOf (gcat m c) (row (m ((c : Thread nD τ).loc main_arg5)))
def out1 (c : Dev nD) : S100000x64.Idx → EReal := Region2.varOf (gcat m c) (row (m ((c : Thread nD τ).loc main_arg7)))
def out2 (c : Dev nD) : S100000x64.Idx → EReal :=
  Region2.sampleOf (gcat m c) (row (m ((c : Thread nD τ).loc main_arg5))) (row (m ((c : Thread nD τ).loc main_arg7))) (m ((c : Thread nD τ).loc main_arg8))

/-! ## After the first stretch and the first launch -/

theorem at1_main_arg0 (c : Dev nD) : W1 m ρ c (Proc.devRef .tc main_arg0) = (m ((c : Thread nD τ).loc main_arg0)) := (kept1_main_arg0 m ρ c).trans (W0_eq m ρ c main_arg0)
theorem at1_main_arg2 (c : Dev nD) : W1 m ρ c (Proc.devRef .tc main_arg2) = (m ((c : Thread nD τ).loc main_arg2)) := (kept1_main_arg2 m ρ c).trans (W0_eq m ρ c main_arg2)
theorem at2_main_arg3 (c : Dev nD) : W2 m ρ c (Proc.devRef .tc main_arg3) = (m ((c : Thread nD τ).loc main_arg3)) :=
  (W2_of_ne m ρ c main_arg3 (by decide)).trans ((kept1_main_arg3 m ρ c).trans (W0_eq m ρ c main_arg3))
theorem at2_main_arg4 (c : Dev nD) : W2 m ρ c (Proc.devRef .tc main_arg4) = (m ((c : Thread nD τ).loc main_arg4)) :=
  (W2_of_ne m ρ c main_arg4 (by decide)).trans ((kept1_main_arg4 m ρ c).trans (W0_eq m ρ c main_arg4))
theorem at2_main_arg5 (c : Dev nD) : W2 m ρ c (Proc.devRef .tc main_arg5) = (m ((c : Thread nD τ).loc main_arg5)) :=
  (W2_of_ne m ρ c main_arg5 (by decide)).trans ((kept1_main_arg5 m ρ c).trans (W0_eq m ρ c main_arg5))
theorem at2_main_arg6 (c : Dev nD) : W2 m ρ c (Proc.devRef .tc main_arg6) = (m ((c : Thread nD τ).loc main_arg6)) :=
  (W2_of_ne m ρ c main_arg6 (by decide)).trans ((kept1_main_arg6 m ρ c).trans (W0_eq m ρ c main_arg6))
theorem at2_main_arg7 (c : Dev nD) : W2 m ρ c (Proc.devRef .tc main_arg7) = (m ((c : Thread nD τ).loc main_arg7)) :=
  (W2_of_ne m ρ c main_arg7 (by decide)).trans ((kept1_main_arg7 m ρ c).trans (W0_eq m ρ c main_arg7))
theorem at2_main_arg8 (c : Dev nD) : W2 m ρ c (Proc.devRef .tc main_arg8) = (m ((c : Thread nD τ).loc main_arg8)) :=
  (W2_of_ne m ρ c main_arg8 (by decide)).trans ((kept1_main_arg8 m ρ c).trans (W0_eq m ρ c main_arg8))
theorem at2_src (c : Dev nD) : W2 m ρ c (Proc.devRef .tc main_v1) = src (ei m c) := (W2_of_ne m ρ c main_v1 (by decide)).trans (first_src m ρ c)
theorem at2_dst (c : Dev nD) : W2 m ρ c (Proc.devRef .tc main_v3) = dst (ei m c) := (W2_of_ne m ρ c main_v3 (by decide)).trans (first_dst m ρ c)
theorem at2_dv2 (c : Dev nD) : W2 m ρ c (Proc.devRef .tc main_v11) = dv2 m c := (W2_of_ne m ρ c main_v11 (by decide)).trans (first_dinv2 m ρ c)
theorem at2_nrm (c : Dev nD) : W2 m ρ c (Proc.devRef .tc main_v26) = nrm m c := (W2_of_ne m ρ c main_v26 (by decide)).trans (first_norm m ρ c)

theorem at2_xw (c : Dev nD) : W2 m ρ c (Proc.devRef .tc main_v27) = xw1 m c := by
  have h : Region0.rowsTimes (W1 m ρ c (Proc.devRef .tc main_arg0)) (W1 m ρ c (Proc.devRef .tc main_arg2)) = xw1 m c := by
    rw [at1_main_arg0, at1_main_arg2]; rfl
  exact ((W2_arr m ρ c 2).trans (Region0.final (V1 m ρ) c)).trans h

/-! ## After the second stretch and the second launch -/

theorem at3_agg (c : Dev nD) : W3 m ρ c (Proc.devRef .tc main_v46) = agg1 m c := by
  rw [second_agg, at2_src, at2_dst, at2_nrm, at2_dv2, at2_xw]; rfl
theorem at3_wcat (c : Dev nD) : W3 m ρ c (Proc.devRef .tc main_v47) = wcat (m ((c : Thread nD τ).loc main_arg4)) (m ((c : Thread nD τ).loc main_arg6)) := by
  rw [second_wcat, at2_main_arg4, at2_main_arg6]
theorem at3_row (c : Dev nD) : W3 m ρ c (Proc.devRef .tc main_v48) = row (m ((c : Thread nD τ).loc main_arg3)) := by
  rw [second_row, at2_main_arg3]
theorem at4_src (c : Dev nD) : W4 m ρ c (Proc.devRef .tc main_v1) = src (ei m c) :=
  (W4_of_ne m ρ c main_v1 (by decide)).trans ((kept3_main_v1 m ρ c).trans (at2_src m ρ c))
theorem at4_dst (c : Dev nD) : W4 m ρ c (Proc.devRef .tc main_v3) = dst (ei m c) :=
  (W4_of_ne m ρ c main_v3 (by decide)).trans ((kept3_main_v3 m ρ c).trans (at2_dst m ρ c))
theorem at4_dv2 (c : Dev nD) : W4 m ρ c (Proc.devRef .tc main_v11) = dv2 m c :=
  (W4_of_ne m ρ c main_v11 (by decide)).trans ((kept3_main_v11 m ρ c).trans (at2_dv2 m ρ c))
theorem at4_nrm (c : Dev nD) : W4 m ρ c (Proc.devRef .tc main_v26) = nrm m c :=
  (W4_of_ne m ρ c main_v26 (by decide)).trans ((kept3_main_v26 m ρ c).trans (at2_nrm m ρ c))
theorem at4_main_arg5 (c : Dev nD) : W4 m ρ c (Proc.devRef .tc main_arg5) = (m ((c : Thread nD τ).loc main_arg5)) :=
  (W4_of_ne m ρ c main_arg5 (by decide)).trans ((kept3_main_arg5 m ρ c).trans (at2_main_arg5 m ρ c))
theorem at4_main_arg7 (c : Dev nD) : W4 m ρ c (Proc.devRef .tc main_arg7) = (m ((c : Thread nD τ).loc main_arg7)) :=
  (W4_of_ne m ρ c main_arg7 (by decide)).trans ((kept3_main_arg7 m ρ c).trans (at2_main_arg7 m ρ c))
theorem at4_main_arg8 (c : Dev nD) : W4 m ρ c (Proc.devRef .tc main_arg8) = (m ((c : Thread nD τ).loc main_arg8)) :=
  (W4_of_ne m ρ c main_arg8 (by decide)).trans ((kept3_main_arg8 m ρ c).trans (at2_main_arg8 m ρ c))

theorem at4_y (c : Dev nD) : W4 m ρ c (Proc.devRef .tc main_v49) = ycat m c := by
  have h : Region1.headProd (W3 m ρ c (Proc.devRef .tc main_v46)) (W3 m ρ c (Proc.devRef .tc main_v48)) (W3 m ρ c (Proc.devRef .tc main_v47)) = ycat m c := by
    rw [at3_agg, at3_row, at3_wcat]; rfl
  exact ((W4_arr m ρ c 3).trans (Region1.final (V3 m ρ) c)).trans h

/-! ## After the third stretch and the third launch -/

theorem at5_g (c : Dev nD) : W5 m ρ c (Proc.devRef .tc main_v68) = gcat m c := by
  rw [third_agg, at4_src, at4_dst, at4_nrm, at4_dv2, at4_y]; rfl
theorem at5_mu (c : Dev nD) : W5 m ρ c (Proc.devRef .tc main_v69) = row (m ((c : Thread nD τ).loc main_arg5)) := by rw [third_row_mu, at4_main_arg5]
theorem at5_var (c : Dev nD) : W5 m ρ c (Proc.devRef .tc main_v70) = row (m ((c : Thread nD τ).loc main_arg7)) := by rw [third_row_var, at4_main_arg7]
theorem at5_eps (c : Dev nD) : W5 m ρ c (Proc.devRef .tc main_arg8) = (m ((c : Thread nD τ).loc main_arg8)) := (kept5_main_arg8 m ρ c).trans (at4_main_arg8 m ρ c)

theorem at6_0 (c : Dev nD) : W6 m ρ c (Proc.devRef .tc main_v71_0) = out0 m c := by
  have h : Region2.meanOf (W5 m ρ c (Proc.devRef .tc main_v68)) (W5 m ρ c (Proc.devRef .tc main_v69)) = out0 m c := by
    rw [at5_g, at5_mu]; rfl
  exact ((W6_arr m ρ c 4).trans (Region2.final_mean (V5 m ρ) c)).trans h
theorem at6_1 (c : Dev nD) : W6 m ρ c (Proc.devRef .tc main_v71_1) = out1 m c := by
  have h : Region2.varOf (W5 m ρ c (Proc.devRef .tc main_v68)) (W5 m ρ c (Proc.devRef .tc main_v70)) = out1 m c := by
    rw [at5_g, at5_var]; rfl
  exact ((W6_arr m ρ c 5).trans (Region2.final_var (V5 m ρ) c)).trans h
theorem at6_2 (c : Dev nD) : W6 m ρ c (Proc.devRef .tc main_v71_2) = out2 m c := by
  have h : Region2.sampleOf (W5 m ρ c (Proc.devRef .tc main_v68)) (W5 m ρ c (Proc.devRef .tc main_v69)) (W5 m ρ c (Proc.devRef .tc main_v70)) (W5 m ρ c (Proc.devRef .tc main_arg8)) = out2 m c := by
    rw [at5_g, at5_mu, at5_var, at5_eps]; rfl
  exact ((W6_arr m ρ c 6).trans (Region2.final_sample (V5 m ρ) c)).trans h

/-! ## The run, read -/

/-- Every weakly fair execution of the idealized kernel terminates, nothing faulting, with its three result arrays
    at the closed forms and its argument arrays as launched. -/
theorem run : θ_run defs (onTc (τ := τ) (main (F := Ideal))) ⟨m, fun _ => 0, ρ⟩ (fun r => ∀ c : Dev nD,
      r.2.mem ((c.tc : Thread nD τ).loc main_v71_0) = out0 m c
      ∧ r.2.mem ((c.tc : Thread nD τ).loc main_v71_1) = out1 m c
      ∧ r.2.mem ((c.tc : Thread nD τ).loc main_v71_2) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (at6_0 m ρ c), (h c).2.1.trans (at6_1 m ρ c),
      (h c).2.2.1.trans (at6_2 m ρ c), (h c).2.2.2⟩)
    (Cert.KernelIdeal.RunValue.run_W6 m ρ)

end Cert.KernelIdeal.Whole

end
-- ==== Proof.LibGraphRows.lean ====
/-
  A row gather and a row scatter-add, read at an index.

  `x[idx]` of an [N, D] array at E row numbers copies whole rows: result row `e` is the operand's row number
  `idx[e]`, read as a signed integer and clamped into [0, N - 1], column by column. `.at[idx].add(u)` of E update rows
  adds update row `e` onto operand row `idx[e]` (signed, NOT clamped: a row number outside [0, N) drops the update),
  column by column; at the exact values the sums are exact, so element (i, j) of the result is the operand's element
  plus the sum of `u (e, j)` over the update rows `e` whose row number is `i`. Stated for all extents.
-/
import Idealize.ShloMosaic.Lib.ValueIdx
import Idealize.ShloMosaic.PureOps.Ideal.Laws

noncomputable section
open scoped BigOperators
namespace Idealize.ShloMosaic.GraphRows
open Idealize.ShloMosaic Idealize.ShloMosaic.ValueIdx

/-- Dimension numbers of a row gather `x[idx]`: operand [N, D], start indices [E, 1], result [E, D]. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER AT (e, j): the operand at row `idx[e]`, read signed and clamped into [0, N - 1], column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
      + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
      + (rowGatherDims N D E wf).offCoord (ix2 e j) 1 = j.val
    rw [GatherDims.batchCoord_eq_zero _ _ _ List.not_mem_nil]
    have hs : (rowGatherDims N D E wf).start (ix2 e j) idx 1 = 0 := by
      unfold GatherDims.start
      rw [dif_neg (show (1 : Fin 2) ∉ (rowGatherDims N D E wf).startIndexMap from
        (show (1 : Fin 2) ∉ ([0] : List (Fin 2)) by decide))]
    rw [hs]
    simp only [Nat.add_zero, Nat.zero_add]
    unfold GatherDims.offCoord
    rw [dif_pos ((GatherDims.mem_sKept (rowGatherDims N D E wf) 1).mpr
      ⟨(show (1 : Fin 2) ∉ ([0] : List (Fin 2)) by decide), List.not_mem_nil⟩)]
    rfl

/-- Dimension numbers of a row scatter `.at[idx].add(u)`: operand [N, D], scatter indices [E, 1], updates [E, D]. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis (inserted, named by the map) the window starts at the signed scatter index of the update's row. -/
private theorem rows_start0 {N D E w : Nat}
    (wf : ScatterDims.WF ⟨2, ![N, D]⟩ ⟨2, ![E, 1]⟩ ⟨2, ![E, D]⟩ [1] [0] [0] 1)
    (idx : IVec ⟨2, ![E, 1]⟩ w) (e : Fin E) (j' : Fin D) :
    (rowScatterDims N D E wf).start (ix2 e j') idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e j')
      ⟨List.idxOf (0 : Fin 2) (rowScatterDims N D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis (not named by the map) the window starts at 0. -/
private theorem rows_start1 {N D E w : Nat}
    (wf : ScatterDims.WF ⟨2, ![N, D]⟩ ⟨2, ![E, 1]⟩ ⟨2, ![E, D]⟩ [1] [0] [0] 1)
    (idx : IVec ⟨2, ![E, 1]⟩ w) (e : Fin E) (j' : Fin D) :
    (rowScatterDims N D E wf).start (ix2 e j') idx 1 = 0 := by
  unfold ScatterDims.start
  rw [dif_neg (show (1 : Fin 2) ∉ (rowScatterDims N D E wf).scatterDimsToOperandDims from
    (show (1 : Fin 2) ∉ ([0] : List (Fin 2)) by decide))]

/-- The row axis is inserted: its window coordinate is 0. -/
private theorem rows_window0 {N D E : Nat}
    (wf : ScatterDims.WF ⟨2, ![N, D]⟩ ⟨2, ![E, 1]⟩ ⟨2, ![E, D]⟩ [1] [0] [0] 1)
    (e : Fin E) (j' : Fin D) :
    (rowScatterDims N D E wf).window (ix2 e j') 0 = 0 := by
  unfold ScatterDims.window
  rw [dif_neg (show (0 : Fin 2) ∉ (rowScatterDims N D E wf).sKept by simp [Shape.kept])]

/-- The column axis is the one window axis: its window coordinate is the update's column. -/
private theorem rows_window1 {N D E : Nat}
    (wf : ScatterDims.WF ⟨2, ![N, D]⟩ ⟨2, ![E, 1]⟩ ⟨2, ![E, D]⟩ [1] [0] [0] 1)
    (e : Fin E) (j' : Fin D) :
    (rowScatterDims N D E wf).window (ix2 e j') 1 = j'.val := by
  unfold ScatterDims.window
  rw [dif_pos (show (1 : Fin 2) ∈ (rowScatterDims N D E wf).sKept by simp [Shape.kept])]
  rfl

/-- Update element (e, j') lands on operand element (i, j) exactly when its row number, read signed, is `i` and its column
    is `j`. -/
theorem resultIdx_rows_eq_some_iff {N D E w : Nat}
    (wf : ScatterDims.WF ⟨2, ![N, D]⟩ ⟨2, ![E, 1]⟩ ⟨2, ![E, D]⟩ [1] [0] [0] 1)
    (idx : IVec ⟨2, ![E, 1]⟩ w) (e : Fin E) (j' : Fin D) (i : Fin N) (j : Fin D) :
    (rowScatterDims N D E wf).resultIdx? (ix2 e j') idx = some (ix2 i j)
      ↔ (idx (ix2 e (0 : Fin 1))).toInt = (i.val : Int) ∧ j' = j := by
  have h0 : (rowScatterDims N D E wf).start (ix2 e j') idx 0 + ((rowScatterDims N D E wf).window (ix2 e j') 0 : Int)
      = (idx (ix2 e (0 : Fin 1))).toInt := by
    rw [rows_start0, rows_window0]; simp
  have h1 : (rowScatterDims N D E wf).start (ix2 e j') idx 1 + ((rowScatterDims N D E wf).window (ix2 e j') 1 : Int)
      = (j'.val : Int) := by
    rw [rows_start1, rows_window1]; simp
  unfold ScatterDims.resultIdx?
  split
  · rename_i h
    rw [Option.some.injEq]
    constructor
    · intro hf
      have e0 : ((rowScatterDims N D E wf).start (ix2 e j') idx 0
          + ((rowScatterDims N D E wf).window (ix2 e j') 0 : Int)).toNat = i.val :=
        congrArg (fun f : (⟨2, ![N, D]⟩ : Shape).Idx => (f 0).val) hf
      have e1 : ((rowScatterDims N D E wf).start (ix2 e j') idx 1
          + ((rowScatterDims N D E wf).window (ix2 e j') 1 : Int)).toNat = j.val :=
        congrArg (fun f : (⟨2, ![N, D]⟩ : Shape).Idx => (f 1).val) hf
      have p0 := (h 0).1
      rw [h0] at e0 p0
      rw [h1] at e1
      exact ⟨by omega, Fin.ext (by omega)⟩
    · rintro ⟨ht, rfl⟩
      funext a
      refine Fin.ext ?_
      match a with
      | ⟨0, _⟩ =>
        show ((rowScatterDims N D E wf).start (ix2 e j') idx 0
          + ((rowScatterDims N D E wf).window (ix2 e j') 0 : Int)).toNat = i.val
        rw [h0, ht]; simp
      | ⟨1, _⟩ =>
        show ((rowScatterDims N D E wf).start (ix2 e j') idx 1
          + ((rowScatterDims N D E wf).window (ix2 e j') 1 : Int)).toNat = j'.val
        rw [h1]; simp
  · rename_i h
    constructor
    · intro hf; exact absurd hf (by simp)
    · rintro ⟨ht, -⟩
      exfalso; apply h
      intro a
      match a with
      | ⟨0, _⟩ =>
        show 0 ≤ (rowScatterDims N D E wf).start (ix2 e j') idx 0 + ((rowScatterDims N D E wf).window (ix2 e j') 0 : Int)
          ∧ (rowScatterDims N D E wf).start (ix2 e j') idx 0 + ((rowScatterDims N D E wf).window (ix2 e j') 0 : Int) < (N : Int)
        rw [h0, ht]; have := i.isLt; omega
      | ⟨1, _⟩ =>
        show 0 ≤ (rowScatterDims N D E wf).start (ix2 e j') idx 1 + ((rowScatterDims N D E wf).window (ix2 e j') 1 : Int)
          ∧ (rowScatterDims N D E wf).start (ix2 e j') idx 1 + ((rowScatterDims N D E wf).window (ix2 e j') 1 : Int) < (D : Int)
        rw [h1]; have := j'.isLt; omega

/-- THE ROW SCATTER-ADD AT (i, j), at the exact values: the operand's element plus the sum, over the update rows whose
    row number is `i`, of their column `j`. -/
theorem scatterAdd_rows_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (i : Fin N) (j : Fin D) :
    Ideal.hostScatterAdd (rowScatterDims N D E wf) x idx upd (ix2 i j)
      = x (ix2 i j) + ∑ e : Fin E, if (idx (ix2 e (0 : Fin 1))).toInt = (i.val : Int) then upd (ix2 e j) else 0 := by
  show x (ix2 i j) + ∑ u ∈ Finset.univ.filter
      (fun u => (rowScatterDims N D E wf).resultIdx? u idx = some (ix2 i j)), upd u = _
  congr 1
  rw [Finset.sum_filter, sum_idx2]
  refine Finset.sum_congr rfl fun e _ => ?_
  simp only [resultIdx_rows_eq_some_iff]
  by_cases ht : (idx (ix2 e (0 : Fin 1))).toInt = (i.val : Int)
  · simp [ht]
  · simp [ht]

end Idealize.ShloMosaic.GraphRows
end
-- ==== Proof.LibPullCols.lean ====
/-
  Selecting columns commutes with a row gather, a row scatter-add and the broadcasts that feed them.

  For a map `σ` of D' column numbers into D, `pullCols σ Y` is the [R, D'] array whose column `j` is column `σ j` of
  `Y`. A row gather copies whole rows and a row scatter-add sums whole rows, so each acts on every column separately:
  reading the result at the columns `σ` is running the operation on the operands read at the columns `σ`. A column
  vector broadcast along the columns, and a scalar broadcast to the whole array, have all their columns equal, so they
  are their own selection at the narrower width. Stated for all extents and every `σ`.
-/
import proofs.«158133_j7078106103848_2_alg».proof.Proof.LibGraphRows
import Idealize.ShloMosaic.Lib.Pipeline.Value

noncomputable section
open scoped BigOperators
namespace Idealize.ShloMosaic.GraphRows
open Idealize.ShloMosaic Idealize.ShloMosaic.ValueIdx

/-- The columns of a [R, D] array selected by σ. -/
def pullCols {α : Type} {R D D' : Nat} (σ : Fin D' → Fin D) (Y : (⟨2, ![R, D]⟩ : Shape).Idx → α) :
    (⟨2, ![R, D']⟩ : Shape).Idx → α :=
  fun i => Y (ix2 (n0 := R) (n1 := D) ⟨(i 0).val, idx2_lt0 i⟩ (σ ⟨(i 1).val, idx2_lt1 i⟩))

/-- Column `j` of the selection is column `σ j`. -/
theorem pullCols_apply {α : Type} {R D D' : Nat} (σ : Fin D' → Fin D) (Y : (⟨2, ![R, D]⟩ : Shape).Idx → α)
    (r : Fin R) (j : Fin D') : pullCols σ Y (ix2 r j) = Y (ix2 r (σ j)) := rfl

/-- A row gather, read at the columns `σ`, is the row gather of the operand read at the columns `σ`. -/
theorem gather_rows_pullCols {α : Type} {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (σ : Fin D' → Fin D) (Y : (⟨2, ![N, D]⟩ : Shape).Idx → α) (idx : IVec ⟨2, ![E, 1]⟩ w) :
    pullCols σ (Host.gather (rowGatherDims N D E wf) Y idx)
      = Host.gather (rowGatherDims N D' E wf') (pullCols σ Y) idx := by
  funext i
  obtain ⟨r, j, rfl⟩ : ∃ (r : Fin E) (j : Fin D'), i = ix2 r j := ⟨i 0, i 1, eq_ix2 i⟩
  rw [pullCols_apply, gather_rows_apply hN wf, gather_rows_apply hN wf', pullCols_apply]

/-- A row scatter-add (exact sums), read at the columns `σ`, is the row scatter-add of the operand and of the updates
    read at the columns `σ`. -/
theorem scatterAdd_rows_pullCols {N D D' E w : Nat}
    (wf : ScatterDims.WF ⟨2, ![N, D]⟩ ⟨2, ![E, 1]⟩ ⟨2, ![E, D]⟩ [1] [0] [0] 1)
    (wf' : ScatterDims.WF ⟨2, ![N, D']⟩ ⟨2, ![E, 1]⟩ ⟨2, ![E, D']⟩ [1] [0] [0] 1)
    (σ : Fin D' → Fin D) (X : (⟨2, ![N, D]⟩ : Shape).Idx → EReal) (idx : IVec ⟨2, ![E, 1]⟩ w)
    (U : (⟨2, ![E, D]⟩ : Shape).Idx → EReal) :
    pullCols σ (Ideal.hostScatterAdd (rowScatterDims N D E wf) X idx U)
      = Ideal.hostScatterAdd (rowScatterDims N D' E wf') (pullCols σ X) idx (pullCols σ U) := by
  funext i
  obtain ⟨r, j, rfl⟩ : ∃ (r : Fin N) (j : Fin D'), i = ix2 r j := ⟨i 0, i 1, eq_ix2 i⟩
  rw [pullCols_apply, scatterAdd_rows_apply wf, scatterAdd_rows_apply wf', pullCols_apply]
  rfl

/-- The index [r, 0] of a column vector [R, 1] is where a broadcast along the columns reads at [r, c]: the row
    coordinate is kept (it is 0 anyway when R = 1, the one case in which that axis counts as stretched), the unit
    axis reads 0. -/
private theorem col_coords {R D : Nat} (r : Fin R) (c : Fin D) (a : Fin (⟨2, ![R, 1]⟩ : Shape).rank) :
    ((ix2 r (0 : Fin 1) : (⟨2, ![R, 1]⟩ : Shape).Idx) a).val
      = if (⟨2, ![R, 1]⟩ : Shape).size a = 1 then 0
        else ((ix2 r c : (⟨2, ![R, D]⟩ : Shape).Idx) ((![0, 1] : Fin 2 → Fin 2) a)).val := by
  match a with
  | ⟨0, _⟩ =>
    show r.val = if R = 1 then 0 else r.val
    split_ifs with hR
    · have := r.isLt; omega
    · rfl
  | ⟨1, _⟩ =>
    show (0 : Nat) = if (1 : Nat) = 1 then 0 else c.val
    rw [if_pos rfl]

/-- A column vector [R, 1] broadcast along the columns (stablehlo.broadcast_in_dim, dims = [0, 1]). -/
theorem broadcastInDim_col_pullCols {α : Type} {R D D' : Nat} (σ : Fin D' → Fin D)
    (h : (⟨2, ![R, 1]⟩ : Shape).BroadcastsInDim ⟨2, ![R, D]⟩ ![0, 1])
    (h' : (⟨2, ![R, 1]⟩ : Shape).BroadcastsInDim ⟨2, ![R, D']⟩ ![0, 1])
    (v : (⟨2, ![R, 1]⟩ : Shape).Idx → α) :
    pullCols σ (broadcastInDim ⟨2, ![R, D]⟩ ![0, 1] h v) = broadcastInDim ⟨2, ![R, D']⟩ ![0, 1] h' v := by
  funext i
  obtain ⟨r, j, rfl⟩ : ∃ (r : Fin R) (j : Fin D'), i = ix2 r j := ⟨i 0, i 1, eq_ix2 i⟩
  rw [pullCols_apply,
    broadcastInDim_apply _ h v (ix2 r (σ j)) (ix2 r (0 : Fin 1)) (col_coords r (σ j)),
    broadcastInDim_apply _ h' v (ix2 r j) (ix2 r (0 : Fin 1)) (col_coords r j)]

/-- A scalar broadcast to a [R, D] array (dims = []). -/
theorem broadcastInDim_scalar_pullCols {α : Type} {R D D' : Nat} (σ : Fin D' → Fin D)
    (h : (⟨0, ![]⟩ : Shape).BroadcastsInDim ⟨2, ![R, D]⟩ ![])
    (h' : (⟨0, ![]⟩ : Shape).BroadcastsInDim ⟨2, ![R, D']⟩ ![])
    (c : (⟨0, ![]⟩ : Shape).Idx → α) :
    pullCols σ (broadcastInDim ⟨2, ![R, D]⟩ ![] h c) = broadcastInDim ⟨2, ![R, D']⟩ ![] h' c := by
  funext i
  obtain ⟨r, j, rfl⟩ : ∃ (r : Fin R) (j : Fin D'), i = ix2 r j := ⟨i 0, i 1, eq_ix2 i⟩
  rw [pullCols_apply,
    broadcastInDim_apply _ h c (ix2 r (σ j)) ix0 (fun a => a.elim0),
    broadcastInDim_apply _ h' c (ix2 r j) ix0 (fun a => a.elim0)]

end Idealize.ShloMosaic.GraphRows
end
-- ==== Proof.AggCols.lean ====
/-
  Aggregating over the graph commutes with selecting columns.

  The aggregate works on every column separately: a row gather copies whole rows, the edge weights and `dinv2` are
  broadcast along the columns, and a row scatter-add sums whole rows. So for ANY map `σ` of 64 column numbers into
  128, the 128-column aggregate of `Y` read at the columns `σ` is the 64-column aggregate of `Y` read at the columns
  `σ`. (The two instances used later are the low half and the high half of a concatenation.)
-/
import proofs.«158133_j7078106103848_2_alg».proof.Proof.HostK
import proofs.«158133_j7078106103848_2_alg».proof.Proof.LibPullCols

set_option maxRecDepth 16384

noncomputable section

open scoped BigOperators

namespace Cert.KernelIdeal.AggCols

open Cert.KernelIdeal Cert.KernelIdeal.Gen
open Idealize.ShloMosaic Idealize.ShloMosaic.TcCoe Idealize.SL.Sem Idealize.ShloMosaic.ValueIdx
open Idealize.ShloMosaic.Pipeline (Dat)

open Cert.KernelIdeal.HostK Idealize.ShloMosaic.GraphRows

variable {R D D' : Nat}

/-- Selecting columns commutes with the elementwise operations (each is computed index by index). -/
theorem pull_addf {φ : FTy} (σ : Fin D' → Fin D) (A B : FVec Ideal ⟨2, ![R, D]⟩ φ) :
    pullCols σ (addf A B) = addf (pullCols σ A) (pullCols σ B) := rfl
theorem pull_mulf {φ : FTy} (σ : Fin D' → Fin D) (A B : FVec Ideal ⟨2, ![R, D]⟩ φ) :
    pullCols σ (mulf A B) = mulf (pullCols σ A) (pullCols σ B) := rfl
theorem pull_extf {φ ψ : FTy} (σ : Fin D' → Fin D) (A : FVec Ideal ⟨2, ![R, D]⟩ φ) (h : φ.bits < ψ.bits) :
    pullCols σ (extf ψ A h) = extf ψ (pullCols σ A) h := rfl

/-- The printed dimension numbers are the row gather's and the row scatter's. -/
theorem gather128_eq (Y : FVec Ideal S100000x128 .bf16) (I : C S1600000x1 .i32) :
    Host.gather gather_S100000x128_S1600000x1_S1600000x128_1_0_n_n_0_1_1128 Y I
      = Host.gather (rowGatherDims 100000 128 1600000 gather_S100000x128_S1600000x1_S1600000x128_1_0_n_n_0_1_1128_wf) Y I := rfl
theorem gather64_eq (Y : FVec Ideal S100000x64 .bf16) (I : C S1600000x1 .i32) :
    Host.gather gather_S100000x64_S1600000x1_S1600000x64_1_0_n_n_0_1_164 Y I
      = Host.gather (rowGatherDims 100000 64 1600000 gather_S100000x64_S1600000x1_S1600000x64_1_0_n_n_0_1_164_wf) Y I := rfl
theorem scatter128_eq (Z : FVec Ideal S100000x128 .f32) (I : C S1600000x1 .i32) (U : FVec Ideal S1600000x128 .f32) :
    Host.scatterAdd scatter_S100000x128_S1600000x1_S1600000x128_1_0_0_1 Z I U
      = Ideal.hostScatterAdd (rowScatterDims 100000 128 1600000 scatter_S100000x128_S1600000x1_S1600000x128_1_0_0_1_wf) Z I U := rfl
theorem scatter64_eq (Z : FVec Ideal S100000x64 .f32) (I : C S1600000x1 .i32) (U : FVec Ideal S1600000x64 .f32) :
    Host.scatterAdd scatter_S100000x64_S1600000x1_S1600000x64_1_0_0_1 Z I U
      = Ideal.hostScatterAdd (rowScatterDims 100000 64 1600000 scatter_S100000x64_S1600000x1_S1600000x64_1_0_0_1_wf) Z I U := rfl

/-- THE AGGREGATE AND A COLUMN SELECTION COMMUTE. -/
theorem agg_pull (σ : Fin 64 → Fin 128) (s d : C S1600000 .i32) (nrm : FVec Ideal S1600000 .f32) (dv2 : FVec Ideal S100000 .f32)
    (Y : FVec Ideal S100000x128 .bf16) :
    pullCols σ (agg128 s d nrm dv2 Y) = agg64 s d nrm dv2 (pullCols σ Y) := by
  unfold agg128 agg64
  rw [pull_addf, pull_mulf, pull_extf, scatter128_eq, scatter64_eq,
    scatterAdd_rows_pullCols scatter_S100000x128_S1600000x1_S1600000x128_1_0_0_1_wf scatter_S100000x64_S1600000x1_S1600000x64_1_0_0_1_wf,
    pull_mulf, pull_extf, gather128_eq, gather64_eq,
    gather_rows_pullCols (by decide) gather_S100000x128_S1600000x1_S1600000x128_1_0_n_n_0_1_1128_wf gather_S100000x64_S1600000x1_S1600000x64_1_0_n_n_0_1_164_wf,
    broadcastInDim_scalar_pullCols σ bcast_S_S100000x128 bcast_S_S100000x64,
    broadcastInDim_col_pullCols σ bcast_S1600000x1_S1600000x128_0_1 bcast_S1600000x1_S1600000x64_0_1,
    broadcastInDim_col_pullCols σ bcast_S100000x1_S100000x128_0_1 bcast_S100000x1_S100000x64_0_1]

end Cert.KernelIdeal.AggCols

end
-- ==== Proof.LibSoftplus.lean ====
/-
  The two spellings of the softplus agree on every extended real.

  The kernel computes `max y 0 + log1p (exp (0 - |y - 0|))` and the reference `max y 0 + log1p (exp (-|y - 0|))`,
  each behind a select on "`y - 0` differs from itself" (ordered in the kernel, unordered in the reference) whose other
  branch is `y + 0`. On the extended reals nothing differs from itself, so both selects take the second branch, and
  `0 - a = -a`.
-/
import Idealize.ShloMosaic.Lib.ValueIdx
import Idealize.ShloMosaic.PureOps.Ideal.Laws

noncomputable section

namespace Idealize.ShloMosaic.Softplus

open Idealize.ShloMosaic Idealize.ShloMosaic.ValueIdx

/-- The zero literal both programs use. -/
abbrev zc : Ideal .f32 := Scalar.ofBits .f32 0x00000000#32

theorem zc_eq : (zc : EReal) = 0 := Ideal.ofBits_zero_f32

/-- The kernel's spelling, on one element. -/
def spK (y : Ideal .f32) : Ideal .f32 :=
  Scalar.select (FloatOps.cmpf .one (FloatOps.subf y zc) (FloatOps.subf y zc)) (FloatOps.addf y zc)
    (FloatOps.addf (FloatOps.maximumf y zc)
      (FloatOps.log1p (FloatOps.exp (FloatOps.subf zc (FloatOps.absf (FloatOps.subf y zc))))))

/-- The reference's spelling, on one element. -/
def spR (y : Ideal .f32) : Ideal .f32 :=
  Scalar.select (FloatOps.cmpf .une (FloatOps.subf y zc) (FloatOps.subf y zc)) (FloatOps.addf y zc)
    (FloatOps.addf (FloatOps.maximumf y zc)
      (FloatOps.hostUnary .log1p (FloatOps.hostUnary .exp (FloatOps.hostNegf (FloatOps.hostAbsf (FloatOps.subf y zc))))))

/-- Nothing differs from itself: the ordered comparison … -/
theorem cmp_one_self (a : EReal) : Ideal.cmp .one a a = 0#1 := by simp [Ideal.cmp]
/-- … and the unordered one. -/
theorem cmp_une_self (a : EReal) : Ideal.cmp .une a a = 0#1 := by simp [Ideal.cmp]

theorem zero_sub' (a : EReal) : (0 : EReal) - a = -a := by rw [sub_eq_add_neg, zero_add]

/-- THE TWO SPELLINGS ARE ONE FUNCTION. -/
theorem spK_eq_spR (y : Ideal .f32) : spK y = spR y := by
  unfold spK spR
  rw [Ideal.cmpf_def, Ideal.cmpf_def, cmp_one_self, cmp_une_self, select_zero, select_zero]
  simp only [Ideal.subf_def, Ideal.addf_def, Ideal.maximumf_def, Ideal.exp_def, Ideal.log1p_def, Ideal.hostUnary_exp_def,
    Ideal.hostUnary_log1p_def, Ideal.hostNegf_def, Ideal.negf_def, Ideal.hostAbsf_def]
  rw [show ((zc : Ideal .f32) : EReal) = 0 from zc_eq, zero_sub']

end Idealize.ShloMosaic.Softplus

end
-- ==== Proof.Bridge.lean ====
/-
  The kernel's three closed forms are the reference's three results.

  Both programs start from `x · W1` (the kernel's row-block products are the reference's one product, a plain sum over
  the 512 inner indices) and aggregate it over the graph with the same operations on the same edge quantities. The
  reference then rectifies, multiplies by each head weight and aggregates each product, 64 columns wide; the kernel
  multiplies by the two weights side by side and aggregates once, 128 columns wide. Column `j` of the wide product is
  column `j` of the first head's product for `j < 64` and column `j - 64` of the second head's otherwise, and the
  aggregate treats every column separately, so the low half of the wide aggregate is the first head's aggregate and
  the high half the second head's. What follows — the biases, the softplus, the sample — is the same arithmetic on both
  sides (the two spellings of the softplus agree on every extended real). No law here needs finiteness: nothing is
  distributed over a sum, only indices are matched.
-/
import proofs.«158133_j7078106103848_2_alg».proof.Proof.Whole
import proofs.«158133_j7078106103848_2_alg».proof.Proof.AggCols
import proofs.«158133_j7078106103848_2_alg».proof.Proof.LibSoftplus
import proofs.«158133_j7078106103848_2_alg».proof.Proof.Gen.ReferenceIdeal.Read
import Idealize.ShloMosaic.Lib.ValueLayout

set_option maxRecDepth 16384

noncomputable section

open scoped BigOperators

namespace Cert.Bridge

open Cert.ReferenceIdeal Cert.ReferenceIdeal.Read
open Idealize.ShloMosaic Idealize.ShloMosaic.TcCoe Idealize.SL.Sem Idealize.ShloMosaic.ValueIdx Idealize.ShloMosaic.GraphRows
open Cert.KernelIdeal.HostK (src dst norm dinv2 agg64 agg128 row wcat)
open Cert.KernelIdeal.Region0 (rowsTimes rowsTimes_apply)
open Cert.KernelIdeal.Region1 (headProd headProd_apply)
open Cert.KernelIdeal.Region2 (lo hi meanOf varOf sampleOf meanOf_apply varOf_apply sampleOf_apply)
open Cert.KernelIdeal.AggCols (agg_pull)

variable (x0 : (⟨S100000x512, .f32⟩ : BufTy).Contents (Elt Ideal)) (x1 : (⟨S2x1600000, .i32⟩ : BufTy).Contents (Elt Ideal)) (x2 : (⟨S512x64, .f32⟩ : BufTy).Contents (Elt Ideal))
  (x3 : (⟨S64, .f32⟩ : BufTy).Contents (Elt Ideal)) (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal)) (x8 : (⟨S100000x64, .f32⟩ : BufTy).Contents (Elt Ideal))

/-! ## The first layer -/

/-- The kernel's row-block products are the reference's one product. -/
theorem xw_eq : (rowsTimes x0 x2 : S100000x64.Idx → EReal) = val_main_v4 (F := Ideal) x0 x2 := by
  funext i
  obtain ⟨r, q, rfl⟩ : ∃ (r : Fin 100000) (q : Fin 64), i = ix2 r q := ⟨i 0, i 1, eq_ix2 i⟩
  rw [rowsTimes_apply, val_main_v4_apply]
  refine Finset.sum_congr rfl fun k _ => ?_
  have el : lidx_main_v4 (ix2 r q) k = ix2 r k := funext fun a => by match a with | ⟨0, _⟩ => rfl | ⟨1, _⟩ => rfl
  have er : ridx_main_v4 (ix2 r q) k = ix2 k q := funext fun a => by match a with | ⟨0, _⟩ => rfl | ⟨1, _⟩ => rfl
  rw [el, er]

/-- The reference's three aggregates are the kernel's 64-column aggregate of what they aggregate: the same operations
    on the same edge quantities. -/
theorem agg_ref1 : val_main_v44 (F := Ideal) x0 x1 x2 = agg64 (src x1) (dst x1) (norm (src x1) (dst x1)) (dinv2 (dst x1)) (val_main_v4 (F := Ideal) x0 x2) := rfl
theorem agg_ref2 : val_main_v89 (F := Ideal) x0 x1 x2 x3 x4 = agg64 (src x1) (dst x1) (norm (src x1) (dst x1)) (dinv2 (dst x1)) (val_main_v49 (F := Ideal) x0 x1 x2 x3 x4) := rfl
theorem agg_ref3 : val_main_v133 (F := Ideal) x0 x1 x2 x3 x6 = agg64 (src x1) (dst x1) (norm (src x1) (dst x1)) (dinv2 (dst x1)) (val_main_v93 (F := Ideal) x0 x1 x2 x3 x6) := rfl

/-- The kernel's first aggregate is the reference's. -/
theorem agg1_eq : agg64 (src x1) (dst x1) (norm (src x1) (dst x1)) (dinv2 (dst x1)) (rowsTimes x0 x2) = val_main_v44 (F := Ideal) x0 x1 x2 := by
  rw [agg_ref1, xw_eq]

/-! ## The hidden layer and the two heads -/

/-- A bias vector as a row, read at a column. -/
theorem row_apply (b : (⟨S64, .f32⟩ : BufTy).Contents (Elt Ideal)) (u : Fin 1) (k : Fin 64) : row b (ix2 u k) = b (ix1 k) :=
  shapeCast_a_1a_apply b _ u k

/-- The reference's hidden layer at an index: the biased first aggregate, rectified. -/
theorem hidden_apply (r : Fin 100000) (k : Fin 64) :
    val_main_v48 (F := Ideal) x0 x1 x2 x3 (ix2 r k)
      = max (val_main_v44 (F := Ideal) x0 x1 x2 (ix2 r k) + x3 (ix1 k)) (Ideal.ofBits .f32 0x00000000#32) := by
  have e : idx_main_v45 (idx_main_v46 (ix2 r k)) = ix1 k := funext fun a => by match a with | ⟨0, _⟩ => rfl
  rw [val_main_v48_apply, val_main_v47_apply, val_main_v46_apply, val_main_v45_apply, e, val_main_call0_v0_apply,
    val_main_call0_cst_apply]
  generalize val_main_v44 (F := Ideal) x0 x1 x2 (ix2 r k) = y
  rfl

/-- The two weights side by side, read in the low half and in the high half. -/
theorem wcat_lo (k q : Fin 64) : wcat x4 x6 (ix2 k (lo q)) = x4 (ix2 k q) := by
  unfold Cert.KernelIdeal.HostK.wcat
  exact concatenate_pair_apply_left (1 : Fin 2) x4 x6 _ (ix2 k (lo q)) rfl (ix2 k q)
    (fun b => by match b with | ⟨0, _⟩ => rfl | ⟨1, _⟩ => rfl)
theorem wcat_hi (k q : Fin 64) : wcat x4 x6 (ix2 k (hi q)) = x6 (ix2 k q) := by
  unfold Cert.KernelIdeal.HostK.wcat
  exact concatenate_pair_apply_right (1 : Fin 2) x4 x6 _ (ix2 k (hi q)) rfl rfl (ix2 k q)
    (fun b hb => by match b with | ⟨0, _⟩ => rfl | ⟨1, _⟩ => exact absurd rfl hb)
    (by show q.val + 64 = 64 + q.val; omega)

/-- The low half of the kernel's wide product is the first head's product … -/
theorem head_lo : pullCols lo (headProd (val_main_v44 (F := Ideal) x0 x1 x2) (row x3) (wcat x4 x6))
    = val_main_v49 (F := Ideal) x0 x1 x2 x3 x4 := by
  funext i
  obtain ⟨r, q, rfl⟩ : ∃ (r : Fin 100000) (q : Fin 64), i = ix2 r q := ⟨i 0, i 1, eq_ix2 i⟩
  rw [pullCols_apply, headProd_apply, val_main_v49_apply]
  refine Finset.sum_congr rfl fun k _ => ?_
  have el : lidx_main_v49 (ix2 r q) k = ix2 r k := funext fun a => by match a with | ⟨0, _⟩ => rfl | ⟨1, _⟩ => rfl
  have er : ridx_main_v49 (ix2 r q) k = ix2 k q := funext fun a => by match a with | ⟨0, _⟩ => rfl | ⟨1, _⟩ => rfl
  rw [el, er, hidden_apply, row_apply, wcat_lo]

/-- … and the high half the second head's. -/
theorem head_hi : pullCols hi (headProd (val_main_v44 (F := Ideal) x0 x1 x2) (row x3) (wcat x4 x6))
    = val_main_v93 (F := Ideal) x0 x1 x2 x3 x6 := by
  funext i
  obtain ⟨r, q, rfl⟩ : ∃ (r : Fin 100000) (q : Fin 64), i = ix2 r q := ⟨i 0, i 1, eq_ix2 i⟩
  rw [pullCols_apply, headProd_apply, val_main_v93_apply]
  refine Finset.sum_congr rfl fun k _ => ?_
  have el : lidx_main_v93 (ix2 r q) k = ix2 r k := funext fun a => by match a with | ⟨0, _⟩ => rfl | ⟨1, _⟩ => rfl
  have er : ridx_main_v93 (ix2 r q) k = ix2 k q := funext fun a => by match a with | ⟨0, _⟩ => rfl | ⟨1, _⟩ => rfl
  rw [el, er, hidden_apply, row_apply, wcat_hi]

/-! ## The wide aggregate, by halves -/

/-- The kernel's wide aggregate. -/
abbrev gK : FVec Ideal Cert.KernelIdeal.S100000x128 .f32 :=
  agg128 (src x1) (dst x1) (norm (src x1) (dst x1)) (dinv2 (dst x1)) (headProd (agg64 (src x1) (dst x1) (norm (src x1) (dst x1)) (dinv2 (dst x1)) (rowsTimes x0 x2)) (row x3) (wcat x4 x6))

theorem g_lo : pullCols lo (gK x0 x1 x2 x3 x4 x6) = val_main_v89 (F := Ideal) x0 x1 x2 x3 x4 := by
  unfold gK
  rw [agg_pull, agg1_eq, head_lo, agg_ref2]
theorem g_hi : pullCols hi (gK x0 x1 x2 x3 x4 x6) = val_main_v133 (F := Ideal) x0 x1 x2 x3 x6 := by
  unfold gK
  rw [agg_pull, agg1_eq, head_hi, agg_ref3]

theorem g_lo_apply (r : Fin 100000) (q : Fin 64) :
    gK x0 x1 x2 x3 x4 x6 (ix2 r (lo q)) = val_main_v89 (F := Ideal) x0 x1 x2 x3 x4 (ix2 r q) := by
  rw [← g_lo, pullCols_apply]
theorem g_hi_apply (r : Fin 100000) (q : Fin 64) :
    gK x0 x1 x2 x3 x4 x6 (ix2 r (hi q)) = val_main_v133 (F := Ideal) x0 x1 x2 x3 x6 (ix2 r q) := by
  rw [← g_hi, pullCols_apply]

/-! ## The three results -/

/-- The reference's softplus at an index is its spelling of the softplus of the biased second aggregate. -/
theorem softplus_ref_apply (i : S100000x64.Idx) :
    val_main_v137 (F := Ideal) x0 x1 x2 x3 x6 x7 i = Softplus.spR (val_main_v136 (F := Ideal) x0 x1 x2 x3 x6 x7 i) := by
  rw [val_main_v137_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply, val_main_call1_cst_apply]
  generalize val_main_v136 (F := Ideal) x0 x1 x2 x3 x6 x7 i = y
  rfl

/-- The kernel's softplus is the module's. -/
theorem spK_eq (y : Ideal .f32) : Cert.KernelIdeal.Region2.spK y = Softplus.spK y := rfl

theorem bias_mu_apply (r : Fin 100000) (q : Fin 64) : val_main_v91 (F := Ideal) x5 (ix2 r q) = x5 (ix1 q) := by
  have e : idx_main_v90 (idx_main_v91 (ix2 r q)) = ix1 q := funext fun a => by match a with | ⟨0, _⟩ => rfl
  rw [val_main_v91_apply, val_main_v90_apply, e]
theorem bias_var_apply (r : Fin 100000) (q : Fin 64) : val_main_v135 (F := Ideal) x7 (ix2 r q) = x7 (ix1 q) := by
  have e : idx_main_v134 (idx_main_v135 (ix2 r q)) = ix1 q := funext fun a => by match a with | ⟨0, _⟩ => rfl
  rw [val_main_v135_apply, val_main_v134_apply, e]

theorem mean_apply (r : Fin 100000) (q : Fin 64) :
    meanOf (gK x0 x1 x2 x3 x4 x6) (row x5) (ix2 r q) = val_main_v92 (F := Ideal) x0 x1 x2 x3 x4 x5 (ix2 r q) := by
  rw [meanOf_apply, g_lo_apply, row_apply, val_main_v92_apply, bias_mu_apply]
  generalize val_main_v89 (F := Ideal) x0 x1 x2 x3 x4 (ix2 r q) = a
  rfl

theorem var_apply (r : Fin 100000) (q : Fin 64) :
    varOf (gK x0 x1 x2 x3 x4 x6) (row x7) (ix2 r q) = val_main_v137 (F := Ideal) x0 x1 x2 x3 x6 x7 (ix2 r q) := by
  rw [varOf_apply, g_hi_apply, row_apply, spK_eq, Softplus.spK_eq_spR, softplus_ref_apply, val_main_v136_apply, bias_var_apply]
  generalize val_main_v133 (F := Ideal) x0 x1 x2 x3 x6 (ix2 r q) = a
  rfl

/-- THE FIRST RESULT. -/
theorem out0_eq : meanOf (gK x0 x1 x2 x3 x4 x6) (row x5) = val_main_v92 (F := Ideal) x0 x1 x2 x3 x4 x5 := by
  funext i
  obtain ⟨r, q, rfl⟩ : ∃ (r : Fin 100000) (q : Fin 64), i = ix2 r q := ⟨i 0, i 1, eq_ix2 i⟩
  exact mean_apply x0 x1 x2 x3 x4 x5 x6 r q

/-- THE SECOND RESULT. -/
theorem out1_eq : varOf (gK x0 x1 x2 x3 x4 x6) (row x7) = val_main_v137 (F := Ideal) x0 x1 x2 x3 x6 x7 := by
  funext i
  obtain ⟨r, q, rfl⟩ : ∃ (r : Fin 100000) (q : Fin 64), i = ix2 r q := ⟨i 0, i 1, eq_ix2 i⟩
  exact var_apply x0 x1 x2 x3 x4 x6 x7 r q

/-- THE THIRD RESULT. -/
theorem out2_eq : sampleOf (gK x0 x1 x2 x3 x4 x6) (row x5) (row x7) x8 = val_main_v139 (F := Ideal) x0 x1 x2 x3 x4 x5 x6 x7 x8 := by
  funext i
  obtain ⟨r, q, rfl⟩ : ∃ (r : Fin 100000) (q : Fin 64), i = ix2 r q := ⟨i 0, i 1, eq_ix2 i⟩
  rw [sampleOf_apply, mean_apply, var_apply, val_main_v139_apply, val_main_v138_apply]
  generalize val_main_v92 (F := Ideal) x0 x1 x2 x3 x4 x5 (ix2 r q) = a
  generalize val_main_v137 (F := Ideal) x0 x1 x2 x3 x6 x7 (ix2 r q) = b
  rfl

end Cert.Bridge

end
-- ==== Proof.lean ====
/-
  The certificate: a two-layer graph convolution with a mean head, a variance head and a reparameterized sample,
  computed by three kernel launches among host operations, against its plain reference — equal as extended reals.

  Both programs compute, from node features `x`, an edge list and the weights: the aggregate over the graph of `x · W1`
  (every node receives the sum, over the edges arriving at it, of the source's row times the edge's weight, plus its
  own row times its self-weight), plus a bias, rectified; then the aggregates of that hidden layer times `W_mu` and
  times `W_var`, each plus its bias; the second through a softplus; and `mean + var · eps`.
  The kernel forms `x · W1` block of rows by block of rows; multiplies the hidden layer by the two head weights side by
  side and aggregates once, 128 columns wide; and splits the halves in its last launch. The reference forms each
  product whole and aggregates each head separately, 64 columns wide.
  They agree because a matrix product is computed row by row, the aggregate column by column, and the side-by-side
  weight's low and high halves are the two weights. Changes of float format are the identity on exact values. The
  arguments' finiteness is not used: no sum is redistributed, only indices are matched.

  The three frames: the two kernel programs' runs terminate without a fault and leave the arguments unchanged (the
  launch theorem over the six segments of @main); the reference's run is a straight line of host operations. The
  idealization rewrote nothing, so its conjunct is trivial.
-/
import proofs.«158133_j7078106103848_2_alg».proof.Defs
import proofs.«158133_j7078106103848_2_alg».proof.Proof.Gen.Kernel
import proofs.«158133_j7078106103848_2_alg».proof.Proof.Gen.Kernel.Skeleton
import proofs.«158133_j7078106103848_2_alg».proof.Proof.Gen.Kernel.Launch
import proofs.«158133_j7078106103848_2_alg».proof.Proof.Gen.Kernel.Points
import proofs.«158133_j7078106103848_2_alg».proof.Proof.Gen.Kernel.Frame
import proofs.«158133_j7078106103848_2_alg».proof.Proof.Gen.KernelIdeal
import proofs.«158133_j7078106103848_2_alg».proof.Proof.Gen.KernelIdeal.Skeleton
import proofs.«158133_j7078106103848_2_alg».proof.Proof.Gen.KernelIdeal.Launch
import proofs.«158133_j7078106103848_2_alg».proof.Proof.Gen.KernelIdeal.Points
import proofs.«158133_j7078106103848_2_alg».proof.Proof.Gen.KernelIdeal.Frame
import proofs.«158133_j7078106103848_2_alg».proof.Proof.Gen.ReferenceIdeal
import proofs.«158133_j7078106103848_2_alg».proof.Proof.Gen.Pre_finite_inputs
import proofs.«158133_j7078106103848_2_alg».proof.Proof.Gen.ReferenceIdeal.Run
import proofs.«158133_j7078106103848_2_alg».proof.Proof.Gen.ReferenceIdeal.Read
import proofs.«158133_j7078106103848_2_alg».proof.Proof.Whole
import proofs.«158133_j7078106103848_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel [Cert.Kernel.Facts] [Cert.Pre_finite_inputs.Facts] : Cert.frame_Kernel :=
  fun m ρ _ => Cert.Kernel.Gen.frame m ρ

/-- The idealized kernel runs and keeps its arguments. -/
theorem frame_kernelIdeal [Cert.KernelIdeal.Facts] [Cert.Pre_finite_inputs.Facts] : Cert.frame_KernelIdeal :=
  fun m ρ _ => Cert.KernelIdeal.Gen.frame m ρ

/-- The idealized reference runs and keeps its arguments: its run with the three results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- From memories agreeing on the nine arguments, the idealized kernel's three result arrays end at the closed forms
    of its arguments and the idealized reference's at its composed terms of the same arguments: one function each. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Whole.out0 m c, fun c => Cert.KernelIdeal.Whole.out1 m c,
    fun c => Cert.KernelIdeal.Whole.out2 m c, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2.1.trans ?_, (h c).2.2.2⟩
  · rw [Cert.ReferenceIdeal.Read.val_main_v92_eq, a0, a1, a2, a3, a4, a5]
    exact (Cert.Bridge.out0_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).symm
  · rw [Cert.ReferenceIdeal.Read.val_main_v137_eq, a0, a1, a2, a3, a6, a7]
    exact (Cert.Bridge.out1_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).symm
  · rw [Cert.ReferenceIdeal.Read.val_main_v139_eq, a0, a1, a2, a3, a4, a5, a6, a7, a8]
    exact (Cert.Bridge.out2_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
